-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2x8192 : Shape := ⟨3, ![4, 2, 8192]⟩
abbrev S4x8192x3 : Shape := ⟨3, ![4, 8192, 3]⟩
abbrev S_ : Shape := ⟨0, ![]⟩

class Facts : Prop where
  bcast_S_S4x2x8192 : S_.BroadcastsInDim S4x2x8192 (![] : Fin 0 → Fin S4x2x8192.rank)
  reducesTo_S4x2x8192_S_d0_1_2 : S4x2x8192.ReducesTo [0, 1, 2] S_
  h_S_ : 0 < S_.numel
  bcast_S_S4x8192x3 : S_.BroadcastsInDim S4x8192x3 (![] : Fin 0 → Fin S4x8192x3.rank)
  reducesTo_S4x8192x3_S_d0_1_2 : S4x8192x3.ReducesTo [0, 1, 2] S_

variable [Facts]

def fn {F : FTy → Type} [FloatOps F] (main_arg0 : FVec F S4x2x8192 .f32) (main_arg1 : FVec F S4x8192x3 .f32) : IVec S_ 1 :=
  let main_v0 : FVec F S4x2x8192 .f32 := Host.absf main_arg0
  let main_cst : FVec F S_ .f32 := constant S_ .f32 0x7F800000#32
  let main_v1 : FVec F S4x2x8192 .f32 := broadcastInDim S4x2x8192 ![] bcast_S_S4x2x8192 main_cst
  let main_v2 : IVec S4x2x8192 1 := cmpf .olt main_v0 main_v1
  let main_c : IVec S_ 1 := constantI S_ 1 1#1
  let main_v3 : IVec S_ 1 := (fun x v => Host.reduce IntOp.andi x v reducesTo_S4x2x8192_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x2x8192 : Shape := ⟨3, ![4, 2, 8192]⟩
abbrev S4x8192x3 : Shape := ⟨3, ![4, 8192, 3]⟩
abbrev S4x3x8192 : Shape := ⟨3, ![4, 3, 8192]⟩
abbrev S_ : Shape := ⟨0, ![]⟩
abbrev S4x8192 : Shape := ⟨2, ![4, 8192]⟩
abbrev S4x8192x1 : Shape := ⟨3, ![4, 8192, 1]⟩
abbrev S4x1x8192 : Shape := ⟨3, ![4, 1, 8192]⟩
abbrev S1x1024x3 : Shape := ⟨3, ![1, 1024, 3]⟩
abbrev S1x3x2048 : Shape := ⟨3, ![1, 3, 2048]⟩
abbrev S1x1024x1 : Shape := ⟨3, ![1, 1024, 1]⟩
abbrev S1x1x2048 : Shape := ⟨3, ![1, 1, 2048]⟩
abbrev S1024x1 : Shape := ⟨2, ![1024, 1]⟩
abbrev S1024x3 : Shape := ⟨2, ![1024, 3]⟩
abbrev S3x2048 : Shape := ⟨2, ![3, 2048]⟩
abbrev S1x2048 : Shape := ⟨2, ![1, 2048]⟩
abbrev S1024x2048 : Shape := ⟨2, ![1024, 2048]⟩
abbrev S1024 : Shape := ⟨1, ![1024]⟩

abbrev nBuf : Space → Nat
  | .hbm => 34
  | .vmem => 15
  | .smem => 0
  | _ => 0

abbrev bufTy : (tb : Table) → Fin (tcTables nBuf tb) → BufTy
  | .hbm, ⟨0, _⟩ => ⟨S4x2x8192, .f32⟩
  | .hbm, ⟨1, _⟩ => ⟨S4x8192x3, .f32⟩
  | .hbm, ⟨2, _⟩ => ⟨S4x3x8192, .f32⟩
  | .hbm, ⟨3, _⟩ => ⟨S_, .f32⟩
  | .hbm, ⟨4, _⟩ => ⟨S4x3x8192, .f32⟩
  | .hbm, ⟨5, _⟩ => ⟨S4x3x8192, .f32⟩
  | .hbm, ⟨6, _⟩ => ⟨S4x8192x3, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S4x1x8192, .f32⟩
  | .hbm, ⟨11, _⟩ => ⟨S_, .f32⟩
  | .hbm, ⟨12, _⟩ => ⟨S4x8192, .f32⟩
  | .hbm, ⟨13, _⟩ => ⟨S_, .f32⟩
  | .hbm, ⟨14, _⟩ => ⟨S4x8192, .f32⟩
  | .hbm, ⟨15, _⟩ => ⟨S4x8192, .f32⟩
  | .hbm, ⟨16, _⟩ => ⟨S4x1x8192, .f32⟩
  | .hbm, ⟨17, _⟩ => ⟨S4x2x8192, .f32⟩
  | .hbm, ⟨18, _⟩ => ⟨S4x2x8192, .f32⟩
  | .hbm, ⟨19, _⟩ => ⟨S4x2x8192, .f32⟩
  | .hbm, ⟨20, _⟩ => ⟨S_, .f32⟩
  | .hbm, ⟨21, _⟩ => ⟨S4x8192, .f32⟩
  | .hbm, ⟨22, _⟩ => ⟨S4x1x8192, .f32⟩
  | .hbm, ⟨23, _⟩ => ⟨S4x2x8192, .f32⟩
  | .hbm, ⟨24, _⟩ => ⟨S4x2x8192, .f32⟩
  | .hbm, ⟨25, _⟩ => ⟨S4x1x8192, .f32⟩
  | .hbm, ⟨26, _⟩ => ⟨S4x8192, .f32⟩
  | .hbm, ⟨27, _⟩ => ⟨S4x8192x1, .f32⟩
  | .hbm, ⟨28, _⟩ => ⟨S4x1x8192, .f32⟩
  | .hbm, ⟨29, _⟩ => ⟨S4x8192x1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x2048, .f32⟩
  | .local _ .vmem, ⟨3, _⟩ => ⟨S1x3x2048, .f32⟩
  | .local _ .vmem, ⟨4, _⟩ => ⟨S1x1024x1, .f32⟩
  | .local _ .vmem, ⟨5, _⟩ => ⟨S1x1024x1, .f32⟩
  | .local _ .vmem, ⟨6, _⟩ => ⟨S1x1x2048, .f32⟩
  | .local _ .vmem, ⟨7, _⟩ => ⟨S1x1x2048, .f32⟩
  | .local _ .vmem, ⟨8, _⟩ => ⟨S1x1024x1, .f32⟩
  | .local _ .vmem, ⟨9, _⟩ => ⟨S1x1024x1, .f32⟩
  | .local _ .vmem, ⟨10, _⟩ => ⟨S1x1x2048, .f32⟩
  | .local _ .vmem, ⟨11, _⟩ => ⟨S1x1x2048, .f32⟩
  | .local _ .vmem, ⟨12, _⟩ => ⟨S1x1024x1, .f32⟩
  | .local _ .vmem, ⟨13, _⟩ => ⟨S1x1024x1, .f32⟩
  | .local _ .vmem, ⟨14, _⟩ => ⟨S1024x1, .f32⟩
  | _, _ => ⟨S4x2x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v49 : BitVec 1 := Scalar.cmpi .eq arg2 c3_i32
  let v50 : BitVec 32 := Scalar.extui v49
  let c0_i32_23 : BitVec 32 := 0#32
  let v51 : BitVec 1 := Scalar.cmpi .ne v50 c0_i32_23
  v51

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  transposes_S4x8192x3_S4x3x8192_0_2_1 : S4x8192x3.Transposes [0, 2, 1] S4x3x8192
  bcast_S_S4x3x8192 : S_.BroadcastsInDim S4x3x8192 (![] : Fin 0 → Fin S4x3x8192.rank)
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  reducesTo_S4x2x8192_S4x8192_d1 : S4x2x8192.ReducesTo [1] S4x8192
  bcast_S_S4x8192 : S_.BroadcastsInDim S4x8192 (![] : Fin 0 → Fin S4x8192.rank)
  bcast_S4x1x8192_S4x2x8192_0_1_2 : S4x1x8192.BroadcastsInDim S4x2x8192 (![0, 1, 2] : Fin 3 → Fin S4x2x8192.rank)
  slices_S4x2x8192_S4x1x8192_0_1_0 : S4x2x8192.Slices ![0, 1, 0] S4x1x8192
  shapeCasts_S4x1x8192_S4x8192 : S4x1x8192.ShapeCasts S4x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  slices_S1024x3_o0_0_S1024x1 : S1024x3.Slices ![0, 0] S1024x1
  slices_S1024x3_o0_1_S1024x1 : S1024x3.Slices ![0, 1] S1024x1
  slices_S1024x3_o0_2_S1024x1 : S1024x3.Slices ![0, 2] S1024x1
  slices_S3x2048_o0_0_S1x2048 : S3x2048.Slices ![0, 0] S1x2048
  slices_S3x2048_o1_0_S1x2048 : S3x2048.Slices ![1, 0] S1x2048
  slices_S3x2048_o2_0_S1x2048 : S3x2048.Slices ![2, 0] S1x2048
  broadcasts_S1024x1_S1024x2048 : S1024x1.Broadcasts S1024x2048
  broadcasts_S1x2048_S1024x2048 : S1x2048.Broadcasts S1024x2048
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  reduces_S1024x2048_S1024 : S1024x2048.Reduces [1] S1024
  shapeCasts_S1024_S1024x1 : S1024.ShapeCasts S1024x1
  shapeCasts_S1024x1_S1x1024x1 : S1024x1.ShapeCasts S1x1024x1
  reducesTo_S4x8192x1_S_d0_1_2 : S4x8192x1.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x2048.size a ≤ S4x3x8192.size a
  hwx0_1 : ∀ i : grid0.Coords, EltTy.bits .f32 = 32 ∨ (Rect.block (s := S4x3x8192) S1x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S4x8192x1.size a
  hwx0_2 : ∀ i : grid0.Coords, EltTy.bits .f32 = 32 ∨ (Rect.block (s := S4x8192x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S4x1x8192.size a
  hwx0_3 : ∀ i : grid0.Coords, EltTy.bits .f32 = 32 ∨ (Rect.block (s := S4x1x8192) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1.size a ≤ S4x8192x1.size a
  hwx0_4 : ∀ i : grid0.Coords, EltTy.bits .f32 = 32 ∨ (Rect.block (s := S4x8192x1) S1x1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048.size a ≤ S4x1x8192.size a
  hwx0_5 : ∀ i : grid0.Coords, EltTy.bits .f32 = 32 ∨ (Rect.block (s := S4x1x8192) S1x1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x1.size a ≤ S4x8192x1.size a
  hwx0_6 : ∀ i : grid0.Coords, EltTy.bits .f32 = 32 ∨ (Rect.block (s := S4x8192x1) S1x1024x1.size (cc0_transform_6 i) (hinb0_6 i)).WholeWords (EltTy.packing .f32)

variable [Facts₀]

abbrev win0_0 : Pipeline.Window sig grid0 :=
  Pipeline.Window.ofSpec (Memref.whole main_arg1) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4x2x8192 : Shape := ⟨3, ![4, 2, 8192]⟩
abbrev S4x8192x3 : Shape := ⟨3, ![4, 8192, 3]⟩
abbrev S_ : Shape := ⟨0, ![]⟩
abbrev S4x8192 : Shape := ⟨2, ![4, 8192]⟩
abbrev S4x8192x1 : Shape := ⟨3, ![4, 8192, 1]⟩
abbrev S4x1x8192 : Shape := ⟨3, ![4, 1, 8192]⟩
abbrev S4x8192x8192 : Shape := ⟨3, ![4, 8192, 8192]⟩

abbrev nBuf : Space → Nat
  | .hbm => 47
  | .vmem => 0
  | .smem => 0
  | _ => 0

abbrev bufTy : (tb : Table) → Fin (tcTables nBuf tb) → BufTy
  | .hbm, ⟨0, _⟩ => ⟨S4x2x8192, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S4x1x8192, .f32⟩
  | .hbm, ⟨7, _⟩ => ⟨S4x8192x8192, .f32⟩
  | .hbm, ⟨8, _⟩ => ⟨S4x8192x8192, .f32⟩
  | .hbm, ⟨9, _⟩ => ⟨S4x8192x8192, .f32⟩
  | .hbm, ⟨10, _⟩ => ⟨S4x8192x8192, .f32⟩
  | .hbm, ⟨11, _⟩ => ⟨S_, .f32⟩
  | .hbm, ⟨12, _⟩ => ⟨S4x8192x8192, .f32⟩
  | .hbm, ⟨13, _⟩ => ⟨S4x8192x8192, .f32⟩
  | .hbm, ⟨14, _⟩ => ⟨S4x8192x8192, .f32⟩
  | .hbm, ⟨15, _⟩ => ⟨S_, .f32⟩
  | .hbm, ⟨16, _⟩ => ⟨S4x8192x8192, .f32⟩
  | .hbm, ⟨17, _⟩ => ⟨S4x8192x8192, .f32⟩
  | .hbm, ⟨18, _⟩ => ⟨S4x8192x8192, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x8192, .f32⟩
  | .hbm, ⟨24, _⟩ => ⟨S4x1x8192, .f32⟩
  | .hbm, ⟨25, _⟩ => ⟨S4x2x8192, .f32⟩
  | .hbm, ⟨26, _⟩ => ⟨S4x2x8192, .f32⟩
  | .hbm, ⟨27, _⟩ => ⟨S4x2x8192, .f32⟩
  | .hbm, ⟨28, _⟩ => ⟨S_, .f32⟩
  | .hbm, ⟨29, _⟩ => ⟨S4x8192, .f32⟩
  | .hbm, ⟨30, _⟩ => ⟨S4x1x8192, .f32⟩
  | .hbm, ⟨31, _⟩ => ⟨S4x2x8192, .f32⟩
  | .hbm, ⟨32, _⟩ => ⟨S4x2x8192, .f32⟩
  | .hbm, ⟨33, _⟩ => ⟨S4x1x8192, .f32⟩
  | .hbm, ⟨34, _⟩ => ⟨S4x8192, .f32⟩
  | .hbm, ⟨35, _⟩ => ⟨S4x8192x1, .f32⟩
  | .hbm, ⟨36, _⟩ => ⟨S4x8192x8192, .f32⟩
  | .hbm, ⟨37, _⟩ => ⟨S4x8192x8192, .f32⟩
  | .hbm, ⟨38, _⟩ => ⟨S4x1x8192, .f32⟩
  | .hbm, ⟨39, _⟩ => ⟨S4x8192x8192, .f32⟩
  | .hbm, ⟨40, _⟩ => ⟨S4x8192x8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S4x2x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_cst_6 : Ref sig .tc := ⟨.hbm, 43, rfl⟩
abbrev main_v34 : Ref sig .tc := ⟨.hbm, 44, rfl⟩
abbrev main_cst_7 : Ref sig .tc := ⟨.hbm, 45, rfl⟩
abbrev main_v35 : Ref sig .tc := ⟨.hbm, 46, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x2x8192_S4x8192_d1 : S4x2x8192.ReducesTo [1] S4x8192
  bcast_S_S4x8192 : S_.BroadcastsInDim S4x8192 (![] : Fin 0 → Fin S4x8192.rank)
  bcast_S4x1x8192_S4x2x8192_0_1_2 : S4x1x8192.BroadcastsInDim S4x2x8192 (![0, 1, 2] : Fin 3 → Fin S4x2x8192.rank)
  slices_S4x2x8192_S4x1x8192_0_1_0 : S4x2x8192.Slices ![0, 1, 0] S4x1x8192
  shapeCasts_S4x1x8192_S4x8192 : S4x1x8192.ShapeCasts S4x8192
  reducesTo_S4x8192x8192_S_d0_1_2 : S4x8192x8192.ReducesTo [0, 1, 2] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.KernelCases.lean ====
/-
  What one grid point of the kernel leaves behind, case by case.

  The kernel walks a 4 x 8 x 4 grid (batch, row block, column block).  It keeps a column of 1024 running sums,
  one per row of the current row block, in a scratch buffer that survives from point to point.  At every point it
  adds to that column the contribution of the current block of 2048 columns ("step" below: the distance tile, times
  the columns' weights, summed along each row, times the rows' weights).  Three control cases:
    first column block  — the column is reset to zero first, so the point leaves step(zero);
    middle column block — the point leaves step(previous column);
    last column block   — the same, and the column is also copied, as a [1, 1024, 1] block, to the output.
  This module identifies, for any float instance, what the body's stores leave in the scratch column and in the
  output block with those three expressions.
-/
import proofs.«157831_j34067680591909_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- One point's update of the running column: the rows' points `x0`, the columns' pre-scaled points `x1`, the
    rows' and columns' squared norms `x2`, `x3`, the rows' and columns' weights `x4`, `x5`, and the column so far. -/
def step (x0 : Vec F S1x1024x3 .f32) (x1 : Vec F S1x3x2048 .f32) (x2 : Vec F S1x1024x1 .f32) (x3 : Vec F S1x1x2048 .f32) (x4 : Vec F S1x1024x1 .f32) (x5 : Vec F S1x1x2048 .f32) (acc : Vec F S1024x1 .f32) : Vec F S1024x1 .f32 :=
  k0_pay1 (k0_pay4 x0 x1 x2 x3) (k0_pay5 x5) x4 acc

/-- The column of zeros a first column block starts from. -/
abbrev zeroCol : Vec F S1024x1 .f32 := k0_pay3 (F := F)

/-- MIDDLE column block: the scratch column ends at the update of what it held. -/
theorem scratch_B (c : Dev nD) (i : grid0.Coords) (a3 : Memref sig .tc .vmem S1x1024x3 .f32) (h3 : a3.IsWhole) (a4 : Memref sig .tc .vmem S1x3x2048 .f32) (h4 : a4.IsWhole) (a5 : Memref sig .tc .vmem S1x1024x1 .f32) (h5 : a5.IsWhole) (a6 : Memref sig .tc .vmem S1x1x2048 .f32) (h6 : a6.IsWhole) (a7 : Memref sig .tc .vmem S1x1024x1 .f32) (h7 : a7.IsWhole) (a8 : Memref sig .tc .vmem S1x1x2048 .f32) (h8 : a8.IsWhole) (a9 : Memref sig .tc .vmem S1x1024x1 .f32) (h9 : a9.IsWhole) (a10 : Memref sig .tc .vmem S1024x1 .f32) (h10 : a10.IsWhole) (hc0 : ¬cond0_0 i) (hc1 : ¬cond0_1 i) (x0 : Vec F S1x1024x3 .f32) (x1 : Vec F S1x3x2048 .f32) (x2 : Vec F S1x1024x1 .f32) (x3 : Vec F S1x1x2048 .f32) (x4 : Vec F S1x1024x1 .f32) (x5 : Vec F S1x1x2048 .f32) (xs0 : Vec F S1024x1 .f32) :
    sout0_B_0 c i a3 h3 a4 h4 a5 h5 a6 h6 a7 h7 a8 h8 a9 h9 a10 h10 hc0 hc1 x0 x1 x2 x3 x4 x5 xs0 = step x0 x1 x2 x3 x4 x5 xs0 := by
  unfold sout0_B_0
  rw [View.read_writes_eq_canon _ _ _ (scover0_B_0 c i a3 h3 a4 h4 a5 h5 a6 h6 a7 h7 a8 h8 a9 h9 a10 h10 hc0 hc1 x0 x1 x2 x3 x4 x5 xs0)]
  unfold kernelRun0_B
  dsimp only
  sl_unfold_words
  rw [View.canon_unit_zero hz2]
  simp only [View.readAt_eq_ld, h3.read_unread, h4.read_unread, h5.read_unread, h6.read_unread, h7.read_unread, h8.read_unread, h10.read_unread,
    View.ld_unit_zero (S := S1x1024x3) hz3, View.ld_unit_zero (S := S1x3x2048) hz3, View.ld_unit_zero (S := S1x1024x1) hz3,
    View.ld_unit_zero (S := S1x1x2048) hz3, View.ld_unit_zero (S := S1024x1) hz2]
  rfl

/-- FIRST column block: the column is zeroed, read back, and ends at the update of the zero column. -/
theorem scratch_A (c : Dev nD) (i : grid0.Coords) (a3 : Memref sig .tc .vmem S1x1024x3 .f32) (h3 : a3.IsWhole) (a4 : Memref sig .tc .vmem S1x3x2048 .f32) (h4 : a4.IsWhole) (a5 : Memref sig .tc .vmem S1x1024x1 .f32) (h5 : a5.IsWhole) (a6 : Memref sig .tc .vmem S1x1x2048 .f32) (h6 : a6.IsWhole) (a7 : Memref sig .tc .vmem S1x1024x1 .f32) (h7 : a7.IsWhole) (a8 : Memref sig .tc .vmem S1x1x2048 .f32) (h8 : a8.IsWhole) (a9 : Memref sig .tc .vmem S1x1024x1 .f32) (h9 : a9.IsWhole) (a10 : Memref sig .tc .vmem S1024x1 .f32) (h10 : a10.IsWhole) (hc0 : cond0_0 i) (hc1 : ¬cond0_1 i) (x0 : Vec F S1x1024x3 .f32) (x1 : Vec F S1x3x2048 .f32) (x2 : Vec F S1x1024x1 .f32) (x3 : Vec F S1x1x2048 .f32) (x4 : Vec F S1x1024x1 .f32) (x5 : Vec F S1x1x2048 .f32) :
    sout0_A_0 c i a3 h3 a4 h4 a5 h5 a6 h6 a7 h7 a8 h8 a9 h9 a10 h10 hc0 hc1 x0 x1 x2 x3 x4 x5 = step x0 x1 x2 x3 x4 x5 zeroCol := by
  unfold sout0_A_0
  rw [View.read_writes_eq_canon _ _ _ (scover0_A_0 c i a3 h3 a4 h4 a5 h5 a6 h6 a7 h7 a8 h8 a9 h9 a10 h10 hc0 hc1 x0 x1 x2 x3 x4 x5)]
  unfold kernelRun0_A
  dsimp only
  sl_unfold_words
  rw [View.canon_cons_unit_zero (S := S1024x1) hz2, View.readCov_unit_zero (S := S1024x1) _ hz2]
  simp only [View.readAt_eq_ld, h3.read_unread, h4.read_unread, h5.read_unread, h6.read_unread, h7.read_unread, h8.read_unread,
    View.ld_unit_zero (S := S1x1024x3) hz3, View.ld_unit_zero (S := S1x3x2048) hz3, View.ld_unit_zero (S := S1x1024x1) hz3,
    View.ld_unit_zero (S := S1x1x2048) hz3]
  rfl

/-- LAST column block, the scratch column: as in the middle. -/
theorem scratch_C (c : Dev nD) (i : grid0.Coords) (a3 : Memref sig .tc .vmem S1x1024x3 .f32) (h3 : a3.IsWhole) (a4 : Memref sig .tc .vmem S1x3x2048 .f32) (h4 : a4.IsWhole) (a5 : Memref sig .tc .vmem S1x1024x1 .f32) (h5 : a5.IsWhole) (a6 : Memref sig .tc .vmem S1x1x2048 .f32) (h6 : a6.IsWhole) (a7 : Memref sig .tc .vmem S1x1024x1 .f32) (h7 : a7.IsWhole) (a8 : Memref sig .tc .vmem S1x1x2048 .f32) (h8 : a8.IsWhole) (a9 : Memref sig .tc .vmem S1x1024x1 .f32) (h9 : a9.IsWhole) (a10 : Memref sig .tc .vmem S1024x1 .f32) (h10 : a10.IsWhole) (hc0 : ¬cond0_0 i) (hc1 : cond0_1 i) (x0 : Vec F S1x1024x3 .f32) (x1 : Vec F S1x3x2048 .f32) (x2 : Vec F S1x1024x1 .f32) (x3 : Vec F S1x1x2048 .f32) (x4 : Vec F S1x1024x1 .f32) (x5 : Vec F S1x1x2048 .f32) (xs0 : Vec F S1024x1 .f32) :
    sout0_C_0 c i a3 h3 a4 h4 a5 h5 a6 h6 a7 h7 a8 h8 a9 h9 a10 h10 hc0 hc1 x0 x1 x2 x3 x4 x5 xs0 = step x0 x1 x2 x3 x4 x5 xs0 := by
  unfold sout0_C_0
  rw [View.read_writes_eq_canon _ _ _ (scover0_C_0 c i a3 h3 a4 h4 a5 h5 a6 h6 a7 h7 a8 h8 a9 h9 a10 h10 hc0 hc1 x0 x1 x2 x3 x4 x5 xs0)]
  unfold kernelRun0_C
  dsimp only
  sl_unfold_words
  rw [View.canon_unit_zero hz2]
  simp only [View.readAt_eq_ld, h3.read_unread, h4.read_unread, h5.read_unread, h6.read_unread, h7.read_unread, h8.read_unread, h10.read_unread,
    View.ld_unit_zero (S := S1x1024x3) hz3, View.ld_unit_zero (S := S1x3x2048) hz3, View.ld_unit_zero (S := S1x1024x1) hz3,
    View.ld_unit_zero (S := S1x1x2048) hz3, View.ld_unit_zero (S := S1024x1) hz2]
  rfl

/-- LAST column block, the output block: the freshly updated column, read back and re-laid as [1, 1024, 1]. -/
theorem out_C (c : Dev nD) (i : grid0.Coords) (a3 : Memref sig .tc .vmem S1x1024x3 .f32) (h3 : a3.IsWhole) (a4 : Memref sig .tc .vmem S1x3x2048 .f32) (h4 : a4.IsWhole) (a5 : Memref sig .tc .vmem S1x1024x1 .f32) (h5 : a5.IsWhole) (a6 : Memref sig .tc .vmem S1x1x2048 .f32) (h6 : a6.IsWhole) (a7 : Memref sig .tc .vmem S1x1024x1 .f32) (h7 : a7.IsWhole) (a8 : Memref sig .tc .vmem S1x1x2048 .f32) (h8 : a8.IsWhole) (a9 : Memref sig .tc .vmem S1x1024x1 .f32) (h9 : a9.IsWhole) (a10 : Memref sig .tc .vmem S1024x1 .f32) (h10 : a10.IsWhole) (hc0 : ¬cond0_0 i) (hc1 : cond0_1 i) (x0 : Vec F S1x1024x3 .f32) (x1 : Vec F S1x3x2048 .f32) (x2 : Vec F S1x1024x1 .f32) (x3 : Vec F S1x1x2048 .f32) (x4 : Vec F S1x1024x1 .f32) (x5 : Vec F S1x1x2048 .f32) (xs0 : Vec F S1024x1 .f32) :
    out0_C_6 c i a3 h3 a4 h4 a5 h5 a6 h6 a7 h7 a8 h8 a9 h9 a10 h10 hc0 hc1 x0 x1 x2 x3 x4 x5 xs0 = k0_pay2 (step x0 x1 x2 x3 x4 x5 xs0) := by
  unfold out0_C_6
  rw [View.read_writes_eq_canon _ _ _ (cover0_C_6 c i a3 h3 a4 h4 a5 h5 a6 h6 a7 h7 a8 h8 a9 h9 a10 h10 hc0 hc1 x0 x1 x2 x3 x4 x5 xs0)]
  unfold kernelRun0_C
  dsimp only
  sl_unfold_words
  rw [View.canon_unit_zero hz3, View.readCov_unit_zero (S := S1024x1) _ hz2]
  simp only [View.readAt_eq_ld, h3.read_unread, h4.read_unread, h5.read_unread, h6.read_unread, h7.read_unread, h8.read_unread, h10.read_unread,
    View.ld_unit_zero (S := S1x1024x3) hz3, View.ld_unit_zero (S := S1x3x2048) hz3, View.ld_unit_zero (S := S1x1024x1) hz3,
    View.ld_unit_zero (S := S1x1x2048) hz3, View.ld_unit_zero (S := S1024x1) hz2]
  rfl

end Cert.KernelIdeal.Cases

end
-- ==== Proof.KernelPoints.lean ====
/-
  The running column over the four points of one row block.

  For a fixed batch and row block the grid visits the four column blocks at four consecutive points; the last of
  them (position ≡ 3 mod 4) writes the output block.  The scratch column after a first point is the update of the
  zero column; after any other point it is the update of what the point before left; and the block written at a
  last point is the column after that point, re-laid.  Hence the written block is four nested updates of zero,
  taken with the input blocks of the four points in order.  Holds for every float instance.
-/
import proofs.«157831_j34067680591909_2_alg».proof.Proof.KernelCases

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]
variable (m : (ℓ : Loc nD τ sig) → Buf (Elt F) ℓ)

/-- The update of a column with the six input blocks of point `t`. -/
def stepAt (c : Dev nD) (t : Fin cfg0.N) (acc : Vec F S1024x1 .f32) : Vec F S1024x1 .f32 :=
  step (iblk m c 0 t) (iblk m c 1 t) (iblk m c 2 t) (iblk m c 3 t) (iblk m c 4 t) (iblk m c 5 t) acc

/-- The point before `t` (the first point is its own predecessor; never used there). -/
def before (t : Fin cfg0.N) : Fin cfg0.N := ⟨t.val - 1, Nat.lt_of_le_of_lt (Nat.sub_le _ _) t.isLt⟩

/-- After a first column block the scratch column is the update of zero. -/
theorem col_first (c : Dev nD) (t : Fin cfg0.N) (h0 : t.val % 4 = 0) :
    (outsAt0 m c t.val t.isLt).2 = stepAt m c t zeroCol := by
  have h1 : ¬t.val % 4 = 3 := by omega
  rw [outsAt0_A m c t h0 h1]
  dsimp only
  unfold stepAt
  exact scratch_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)

/-- After any other column block it is the update of what the point before left. -/
theorem col_next (c : Dev nD) (t : Fin cfg0.N) (h0 : ¬t.val % 4 = 0) :
    (outsAt0 m c t.val t.isLt).2 = stepAt m c t (outsAt0 m c (before t).val (before t).isLt).2 := by
  by_cases h1 : t.val % 4 = 3
  · rw [outsAt0_C m c t h0 h1]
    dsimp only
    unfold stepAt
    exact scratch_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) _
  · rw [outsAt0_B m c t h0 h1]
    dsimp only
    unfold stepAt
    exact scratch_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) _

/-- At a last column block the output's staging buffer holds the updated column, re-laid. -/
theorem out_last (c : Dev nD) (t : Fin cfg0.N) (h1 : t.val % 4 = 3) :
    (outsAt0 m c t.val t.isLt).1 = k0_pay2 (stepAt m c t (outsAt0 m c (before t).val (before t).isLt).2) := by
  have h0 : ¬t.val % 4 = 0 := by omega
  rw [outsAt0_C m c t h0 h1]
  dsimp only
  unfold stepAt
  exact out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) _

/-- THE WRITTEN BLOCK: four nested updates of the zero column, over the four points of the row block in order. -/
theorem out_at_last (c : Dev nD) (t : Fin cfg0.N) (h3 : t.val % 4 = 3) :
    (outsAt0 m c t.val t.isLt).1
      = k0_pay2 (stepAt m c t (stepAt m c (before t) (stepAt m c (before (before t))
          (stepAt m c (before (before (before t))) zeroCol)))) := by
  have e1 := col_next m c (before t) (by show ¬(t.val - 1) % 4 = 0; omega)
  have e2 := col_next m c (before (before t)) (by show ¬(t.val - 1 - 1) % 4 = 0; omega)
  have e3 := col_first m c (before (before (before t))) (by show (t.val - 1 - 1 - 1) % 4 = 0; omega)
  rw [out_last m c t h3]
  refine congrArg k0_pay2 (congrArg (stepAt m c t) ?_)
  refine e1.trans (congrArg (stepAt m c (before t)) ?_)
  refine e2.trans (congrArg (stepAt m c (before (before t))) ?_)
  exact e3

end Cert.KernelIdeal.Cases

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.KernelStep.lean ====
/-
  One grid point's update, entry by entry, in exact arithmetic.

  The update adds to row r's running sum
      w_r · Σ_{j < 2048}  √ max ((s_r + s'_j) + (p_r,0 · q_0,j + p_r,1 · q_1,j + p_r,2 · q_2,j), 0) · w'_j
  where p is the block of 1024 row points, q the block of 2048 pre-scaled column points laid out coordinate-major,
  s, s' the two blocks of squared norms and w, w' the two blocks of weights.  Everything but the lane sum is an
  entrywise operation or a re-layout (dropping a unit axis, taking one column or one row, spreading a column
  along the lanes or a row down the sublanes), so each entry of the tile depends on one entry of each block.
-/
import proofs.«157831_j34067680591909_2_alg».proof.Proof.KernelCases
import proofs.«157831_j34067680591909_2_alg».proof.Proof.LibKeepdims
import Idealize.ShloMosaic.Lib.ValueLayout
import Idealize.ShloMosaic.Lib.ValueIdx
import Idealize.ShloMosaic.PureOps.Ideal.Laws

noncomputable section

open Idealize.ShloMosaic Idealize.ShloMosaic.TcCoe Idealize.SL.Sem

namespace Cert.KernelIdeal.Cases

open Cert.KernelIdeal Cert.KernelIdeal.Gen Idealize.ShloMosaic.ValueIdx Cert.Lib.Keepdims

/-! ## The re-layouts, read at an entry -/

/-- Coordinate k of the row points, spread along the lanes: entry (r, j) is coordinate k of row point r. -/
theorem rowCoord_apply (x0 : Vec Ideal S1x1024x3 .f32) (k : Nat) (kk : Fin 3) (hk : kk.val = k)
    (hc : S1x1024x3.ShapeCasts S1024x3) (hsl : S1024x3.Slices ![0, k] S1024x1) (hb : S1024x1.Broadcasts S1024x2048)
    (r : Fin 1024) (j : Fin 2048) :
    broadcastTo S1024x2048 (extractStridedSlice S1024x1 ![0, k] (shapeCast S1024x3 x0 hc) hsl) hb (ix2 r j)
      = x0 (ix3 (0 : Fin 1) r kk) :=
  (broadcastTo_a1_ab_apply _ hb r j).trans
    ((slice2_axis1_apply k _ hsl r (0 : Fin 1) kk (by show kk.val = k + 0; omega)).trans
      (shapeCast_1ab_ab_apply x0 hc r kk))

/-- Coordinate k of the column points, spread down the sublanes: entry (r, j) is coordinate k of column point j. -/
theorem colCoord_apply (x1 : Vec Ideal S1x3x2048 .f32) (k : Nat) (kk : Fin 3) (hk : kk.val = k)
    (hc : S1x3x2048.ShapeCasts S3x2048) (hsl : S3x2048.Slices ![k, 0] S1x2048) (hb : S1x2048.Broadcasts S1024x2048)
    (r : Fin 1024) (j : Fin 2048) :
    broadcastTo S1024x2048 (extractStridedSlice S1x2048 ![k, 0] (shapeCast S3x2048 x1 hc) hsl) hb (ix2 r j)
      = x1 (ix3 (0 : Fin 1) kk j) :=
  (broadcastTo_1b_ab_apply _ hb r j).trans
    ((slice2_axis0_apply k _ hsl (0 : Fin 1) j kk (by show kk.val = k + 0; omega)).trans
      (shapeCast_1ab_ab_apply x1 hc kk j))

/-- A per-row quantity spread along the lanes: entry (r, j) is the quantity of row r. -/
theorem rowVal_apply (x : Vec Ideal S1x1024x1 .f32) (hc : S1x1024x1.ShapeCasts S1024x1) (hb : S1024x1.Broadcasts S1024x2048)
    (r : Fin 1024) (j : Fin 2048) :
    broadcastTo S1024x2048 (shapeCast S1024x1 x hc) hb (ix2 r j) = x (ix3 (0 : Fin 1) r (0 : Fin 1)) :=
  (broadcastTo_a1_ab_apply _ hb r j).trans (shapeCast_1ab_ab_apply x hc r (0 : Fin 1))

/-- A per-column quantity spread down the sublanes: entry (r, j) is the quantity of column j. -/
theorem colVal_apply (x : Vec Ideal S1x1x2048 .f32) (hc : S1x1x2048.ShapeCasts S1x2048) (hb : S1x2048.Broadcasts S1024x2048)
    (r : Fin 1024) (j : Fin 2048) :
    broadcastTo S1024x2048 (shapeCast S1x2048 x hc) hb (ix2 r j) = x (ix3 (0 : Fin 1) (0 : Fin 1) j) :=
  (broadcastTo_1b_ab_apply _ hb r j).trans (shapeCast_1ab_ab_apply x hc (0 : Fin 1) j)

/-! ## The distance tile and the update -/

/-- The clipped distance between row point r and column point j, from the blocks' entries. -/
def tileEntry (x0 : Vec Ideal S1x1024x3 .f32) (x1 : Vec Ideal S1x3x2048 .f32) (x2 : Vec Ideal S1x1024x1 .f32)
    (x3 : Vec Ideal S1x1x2048 .f32) (r : Fin 1024) (j : Fin 2048) : EReal :=
  Ideal.sqrt (max ((x2 (ix3 (0 : Fin 1) r (0 : Fin 1)) + x3 (ix3 (0 : Fin 1) (0 : Fin 1) j))
      + ((x0 (ix3 (0 : Fin 1) r (0 : Fin 3)) * x1 (ix3 (0 : Fin 1) (0 : Fin 3) j)
          + x0 (ix3 (0 : Fin 1) r (1 : Fin 3)) * x1 (ix3 (0 : Fin 1) (1 : Fin 3) j))
        + x0 (ix3 (0 : Fin 1) r (2 : Fin 3)) * x1 (ix3 (0 : Fin 1) (2 : Fin 3) j)))
    (Ideal.ofBits .f32 0x00000000#32))

theorem tile_apply (x0 : Vec Ideal S1x1024x3 .f32) (x1 : Vec Ideal S1x3x2048 .f32) (x2 : Vec Ideal S1x1024x1 .f32)
    (x3 : Vec Ideal S1x1x2048 .f32) (r : Fin 1024) (j : Fin 2048) :
    k0_pay4 x0 x1 x2 x3 (ix2 r j) = tileEntry x0 x1 x2 x3 r j := by
  unfold k0_pay4 tileEntry
  simp only [sqrt, maximumf, addf, mulf, broadcast, Ideal.sqrt_def, Ideal.maximumf_def, Ideal.addf_def, Ideal.mulf_def,
    rowCoord_apply x0 0 (0 : Fin 3) rfl, rowCoord_apply x0 1 (1 : Fin 3) rfl, rowCoord_apply x0 2 (2 : Fin 3) rfl,
    colCoord_apply x1 0 (0 : Fin 3) rfl, colCoord_apply x1 1 (1 : Fin 3) rfl, colCoord_apply x1 2 (2 : Fin 3) rfl]
  rw [rowVal_apply x2, colVal_apply x3]
  rfl

/-- The columns' weights spread down the sublanes. -/
theorem colWeight_apply (x5 : Vec Ideal S1x1x2048 .f32) (r : Fin 1024) (j : Fin 2048) :
    k0_pay5 x5 (ix2 r j) = x5 (ix3 (0 : Fin 1) (0 : Fin 1) j) := by
  unfold k0_pay5
  exact colVal_apply x5 _ _ r j

/-- THE UPDATE at row r: the running sum plus the row's weight times the block's weighted row sum. -/
theorem step_apply (x0 : Vec Ideal S1x1024x3 .f32) (x1 : Vec Ideal S1x3x2048 .f32) (x2 : Vec Ideal S1x1024x1 .f32)
    (x3 : Vec Ideal S1x1x2048 .f32) (x4 : Vec Ideal S1x1024x1 .f32) (x5 : Vec Ideal S1x1x2048 .f32)
    (acc : Vec Ideal S1024x1 .f32) (r : Fin 1024) :
    step x0 x1 x2 x3 x4 x5 acc (ix2 r (0 : Fin 1))
      = acc (ix2 r (0 : Fin 1)) + x4 (ix3 (0 : Fin 1) r (0 : Fin 1))
          * ∑ j : Fin 2048, tileEntry x0 x1 x2 x3 r j * x5 (ix3 (0 : Fin 1) (0 : Fin 1) j) := by
  unfold step k0_pay1
  rw [shapeCast_self]
  show acc (ix2 r (0 : Fin 1)) + (shapeCast S1024x1 x4 _ (ix2 r (0 : Fin 1)))
      * (shapeCast S1024x1 (multiReduction .add [1] S1024 (mulf (k0_pay4 x0 x1 x2 x3) (k0_pay5 x5)) 0x00000000#32 _ _ _) _ (ix2 r (0 : Fin 1))) = _
  rw [shapeCast_1ab_ab_apply x4 _ r (0 : Fin 1), shapeCast_a_a1_apply _ _ r (0 : Fin 1), rowSum_apply]
  refine congrArg (fun z => acc (ix2 r (0 : Fin 1)) + x4 (ix3 (0 : Fin 1) r (0 : Fin 1)) * z) (Finset.sum_congr rfl fun j _ => ?_)
  show k0_pay4 x0 x1 x2 x3 (ix2 r j) * k0_pay5 x5 (ix2 r j) = _
  rw [tile_apply, colWeight_apply]

/-- The column of zeros, read at a row. -/
theorem zeroCol_apply (r : Fin 1024) : (zeroCol (F := Ideal)) (ix2 r (0 : Fin 1)) = Ideal.ofBits .f32 0x00000000#32 := by
  unfold zeroCol k0_pay3
  rw [shapeCast_self]
  rfl

/-- The output block: the column re-laid as [1, 1024, 1]. -/
theorem outBlock_apply (col : Vec Ideal S1024x1 .f32) (r : Fin 1024) :
    k0_pay2 col (ix3 (0 : Fin 1) r (0 : Fin 1)) = col (ix2 r (0 : Fin 1)) := by
  unfold k0_pay2
  exact shapeCast_ab_1ab_apply col _ (0 : Fin 1) r (0 : Fin 1)

end Cert.KernelIdeal.Cases

end
-- ==== Proof.KernelBlocks.lean ====
/-
  Where a block's entry sits in its array.

  Grid position t < 128 is (batch, row block, column block) = (t / 32, t / 4 mod 8, t mod 4).  The row-side windows
  (the row points [4, 8192, 3], their squared norms and weights [4, 8192, 1], and the output [4, 8192, 1]) take block
  (batch, row block, 0) of 1 x 1024 x · entries; the column-side windows (the pre-scaled points [4, 3, 8192], the
  squared norms and weights [4, 1, 8192]) take block (batch, 0, column block) of 1 x · x 2048 entries.  So entry
  (0, r, k) of a row-side block is entry (batch, 1024 · row block + r, k) of the array, and entry (0, k, j) of a
  column-side block is entry (batch, k, 2048 · column block + j).
-/
import proofs.«157831_j34067680591909_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The windows' block indices at every grid position, decided over the grid. -/
theorem idx_facts : ∀ t : Fin cfg0.N,
    (win0_0.index t (0 : Fin 3) = t.val / 32 ∧ win0_0.index t (1 : Fin 3) = t.val / 4 % 8 ∧ win0_0.index t (2 : Fin 3) = 0)
    ∧ (win0_1.index t (0 : Fin 3) = t.val / 32 ∧ win0_1.index t (1 : Fin 3) = 0 ∧ win0_1.index t (2 : Fin 3) = t.val % 4)
    ∧ (win0_2.index t (0 : Fin 3) = t.val / 32 ∧ win0_2.index t (1 : Fin 3) = t.val / 4 % 8 ∧ win0_2.index t (2 : Fin 3) = 0)
    ∧ (win0_3.index t (0 : Fin 3) = t.val / 32 ∧ win0_3.index t (1 : Fin 3) = 0 ∧ win0_3.index t (2 : Fin 3) = t.val % 4)
    ∧ (win0_4.index t (0 : Fin 3) = t.val / 32 ∧ win0_4.index t (1 : Fin 3) = t.val / 4 % 8 ∧ win0_4.index t (2 : Fin 3) = 0)
    ∧ (win0_5.index t (0 : Fin 3) = t.val / 32 ∧ win0_5.index t (1 : Fin 3) = 0 ∧ win0_5.index t (2 : Fin 3) = t.val % 4)
    ∧ (win0_6.index t (0 : Fin 3) = t.val / 32 ∧ win0_6.index t (1 : Fin 3) = t.val / 4 % 8 ∧ win0_6.index t (2 : Fin 3) = 0) :=
  (by decide +kernel : ∀ t : Fin grid0.N, _)

/-- Row points: entry (0, r, k) of the block at t. -/
theorem rowPts_apply (c : Dev nD) (t : Fin cfg0.N) (r : Fin 1024) (k : Fin 3) (b : Fin 4) (n : Fin 8192)
    (hb : b.val = t.val / 32) (hn : n.val = 1024 * (t.val / 4 % 8) + r.val) :
    (iblk m c 0 t : Vec F S1x1024x3 .f32) (ix3 (0 : Fin 1) r k) = V m c main_arg1 (ix3 b n k) := by
  obtain ⟨⟨e0, e1, e2⟩, -⟩ := idx_facts t
  unfold iblk
  rw [View.read_apply]
  show V m c main_arg1 _ = V m c main_arg1 _
  congr 1
  funext a
  apply Fin.ext
  match a with
  | ⟨0, _⟩ => show win0_0.index t (0 : Fin 3) * 1 + 1 * 0 = b.val; omega
  | ⟨1, _⟩ => show win0_0.index t (1 : Fin 3) * 1024 + 1 * r.val = n.val; omega
  | ⟨2, _⟩ => show win0_0.index t (2 : Fin 3) * 3 + 1 * k.val = k.val; omega

/-- Pre-scaled column points: entry (0, k, j) of the block at t. -/
theorem colPts_apply (c : Dev nD) (t : Fin cfg0.N) (k : Fin 3) (j : Fin 2048) (b : Fin 4) (q : Fin 8192)
    (hb : b.val = t.val / 32) (hq : q.val = 2048 * (t.val % 4) + j.val) :
    (iblk m c 1 t : Vec F S1x3x2048 .f32) (ix3 (0 : Fin 1) k j) = V m c main_v2 (ix3 b k q) := by
  obtain ⟨-, ⟨e0, e1, e2⟩, -⟩ := idx_facts t
  unfold iblk
  rw [View.read_apply]
  show V m c main_v2 _ = V m c main_v2 _
  congr 1
  funext a
  apply Fin.ext
  match a with
  | ⟨0, _⟩ => show win0_1.index t (0 : Fin 3) * 1 + 1 * 0 = b.val; omega
  | ⟨1, _⟩ => show win0_1.index t (1 : Fin 3) * 3 + 1 * k.val = k.val; omega
  | ⟨2, _⟩ => show win0_1.index t (2 : Fin 3) * 2048 + 1 * j.val = q.val; omega

/-- Rows' squared norms: entry (0, r, 0) of the block at t. -/
theorem rowSq_apply (c : Dev nD) (t : Fin cfg0.N) (r : Fin 1024) (b : Fin 4) (n : Fin 8192)
    (hb : b.val = t.val / 32) (hn : n.val = 1024 * (t.val / 4 % 8) + r.val) :
    (iblk m c 2 t : Vec F S1x1024x1 .f32) (ix3 (0 : Fin 1) r (0 : Fin 1)) = V m c main_v5 (ix3 b n (0 : Fin 1)) := by
  obtain ⟨-, -, ⟨e0, e1, e2⟩, -⟩ := idx_facts t
  unfold iblk
  rw [View.read_apply]
  show V m c main_v5 _ = V m c main_v5 _
  congr 1
  funext a
  apply Fin.ext
  match a with
  | ⟨0, _⟩ => show win0_2.index t (0 : Fin 3) * 1 + 1 * 0 = b.val; omega
  | ⟨1, _⟩ => show win0_2.index t (1 : Fin 3) * 1024 + 1 * r.val = n.val; omega
  | ⟨2, _⟩ => show win0_2.index t (2 : Fin 3) * 1 + 1 * 0 = 0; omega

/-- Columns' squared norms: entry (0, 0, j) of the block at t. -/
theorem colSq_apply (c : Dev nD) (t : Fin cfg0.N) (j : Fin 2048) (b : Fin 4) (q : Fin 8192)
    (hb : b.val = t.val / 32) (hq : q.val = 2048 * (t.val % 4) + j.val) :
    (iblk m c 3 t : Vec F S1x1x2048 .f32) (ix3 (0 : Fin 1) (0 : Fin 1) j) = V m c main_v6 (ix3 b (0 : Fin 1) q) := by
  obtain ⟨-, -, -, ⟨e0, e1, e2⟩, -⟩ := idx_facts t
  unfold iblk
  rw [View.read_apply]
  show V m c main_v6 _ = V m c main_v6 _
  congr 1
  funext a
  apply Fin.ext
  match a with
  | ⟨0, _⟩ => show win0_3.index t (0 : Fin 3) * 1 + 1 * 0 = b.val; omega
  | ⟨1, _⟩ => show win0_3.index t (1 : Fin 3) * 1 + 1 * 0 = 0; omega
  | ⟨2, _⟩ => show win0_3.index t (2 : Fin 3) * 2048 + 1 * j.val = q.val; omega

/-- Rows' weights: entry (0, r, 0) of the block at t. -/
theorem rowW_apply (c : Dev nD) (t : Fin cfg0.N) (r : Fin 1024) (b : Fin 4) (n : Fin 8192)
    (hb : b.val = t.val / 32) (hn : n.val = 1024 * (t.val / 4 % 8) + r.val) :
    (iblk m c 4 t : Vec F S1x1024x1 .f32) (ix3 (0 : Fin 1) r (0 : Fin 1)) = V m c main_v20 (ix3 b n (0 : Fin 1)) := by
  obtain ⟨-, -, -, -, ⟨e0, e1, e2⟩, -⟩ := idx_facts t
  unfold iblk
  rw [View.read_apply]
  show V m c main_v20 _ = V m c main_v20 _
  congr 1
  funext a
  apply Fin.ext
  match a with
  | ⟨0, _⟩ => show win0_4.index t (0 : Fin 3) * 1 + 1 * 0 = b.val; omega
  | ⟨1, _⟩ => show win0_4.index t (1 : Fin 3) * 1024 + 1 * r.val = n.val; omega
  | ⟨2, _⟩ => show win0_4.index t (2 : Fin 3) * 1 + 1 * 0 = 0; omega

/-- Columns' weights: entry (0, 0, j) of the block at t. -/
theorem colW_apply (c : Dev nD) (t : Fin cfg0.N) (j : Fin 2048) (b : Fin 4) (q : Fin 8192)
    (hb : b.val = t.val / 32) (hq : q.val = 2048 * (t.val % 4) + j.val) :
    (iblk m c 5 t : Vec F S1x1x2048 .f32) (ix3 (0 : Fin 1) (0 : Fin 1) j) = V m c main_v21 (ix3 b (0 : Fin 1) q) := by
  obtain ⟨-, -, -, -, -, ⟨e0, e1, e2⟩, -⟩ := idx_facts t
  unfold iblk
  rw [View.read_apply]
  show V m c main_v21 _ = V m c main_v21 _
  congr 1
  funext a
  apply Fin.ext
  match a with
  | ⟨0, _⟩ => show win0_5.index t (0 : Fin 3) * 1 + 1 * 0 = b.val; omega
  | ⟨1, _⟩ => show win0_5.index t (1 : Fin 3) * 1 + 1 * 0 = 0; omega
  | ⟨2, _⟩ => show win0_5.index t (2 : Fin 3) * 2048 + 1 * j.val = q.val; omega

end Cert.KernelIdeal.Blocks

end
-- ==== Proof.PairSumAlgebra.lean ====
/-
  The arithmetic that joins the two programs, free of any program text.

  Data: points c b n ∈ ℝ³ (b < 4 batches, n < 8192 points), their squared norms s b n, and weights w b n.
  Both programs compute, up to one constant factor, the weighted sum of all pairwise distances
      T = Σ_b Σ_n Σ_m  dist b n m · w b n · w b m,   dist b n m = √ max (s b n + s b m − 2 ⟨c b n, c b m⟩, 0).
  The reference forms every term (dist · w_n) · w_m, sums them all, divides by 2^28 and multiplies by the
  word m₀ nearest one thousandth.  The kernel receives the second point already scaled by −2, so its inner
  product term is Σ_k c_n,k · (−2 · c_m,k); it multiplies by w_m only, sums a row over four blocks of 2048
  columns, multiplies each block sum by w_n, adds the four blocks in order from zero, sums the rows and
  multiplies by m₀ / 2^28.
  Over the reals these agree: −2 Σ_k x_k y_k = Σ_k x_k (−2 y_k), a factor moves across a finite sum, and a
  sum over 8192 columns is the sum of its four consecutive blocks.  On the extended reals the same laws fail
  at infinities (a product does not distribute over a sum of opposite infinities), which is why the statement
  asks for real data: every quantity then is the image of a real number and the identity is proved in ℝ.
-/
import Idealize.ShloMosaic.PureOps.Ideal
import Idealize.ShloMosaic.PureOps.Ideal.Laws

noncomputable section

namespace Cert.PairSum

open Idealize.ShloMosaic Finset

/-! ## Real numbers inside the extended reals -/

/-- The image of a finite real sum is the sum of the images. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [sum_insert ha, sum_insert ha, EReal.coe_add, ih]

/-- The inclusion of the reals is monotone, so it commutes with the maximum. -/
theorem coe_max (x y : ℝ) : ((max x y : ℝ) : EReal) = max (x : EReal) (y : EReal) :=
  EReal.coe_strictMono.monotone.map_max

/-- The square root of a real clipped below at zero is the real square root: the clipped argument is never negative. -/
theorem sqrt_max_coe (r : ℝ) : Ideal.sqrt (max (r : EReal) 0) = ((Real.sqrt (max r 0) : ℝ) : EReal) := by
  rw [← EReal.coe_zero, ← coe_max, Ideal.sqrt_coe, if_neg (not_lt.2 (le_max_right r 0))]

/-! ## Columns in four consecutive blocks -/

/-- Column j of block J among 8192 columns cut into four blocks of 2048. -/
def col (J : Fin 4) (j : Fin 2048) : Fin 8192 := ⟨2048 * J.val + j.val, by omega⟩

/-- Summing block by block is summing over all columns (any commutative monoid). -/
theorem sum_col {β : Type*} [AddCommMonoid β] (g : Fin 8192 → β) :
    ∑ J : Fin 4, ∑ j : Fin 2048, g (col J j) = ∑ m : Fin 8192, g m := by
  have e := Equiv.sum_comp (finProdFinEquiv (m := 4) (n := 2048)) (g : Fin (4 * 2048) → β)
  rw [Fintype.sum_prod_type] at e
  refine Eq.trans (sum_congr rfl fun J _ => sum_congr rfl fun j _ => congrArg g (Fin.ext ?_)) e
  show 2048 * J.val + j.val = j.val + 2048 * J.val
  omega

/-! ## The two arrangements on the extended reals -/

section forms

variable (c : Fin 4 → Fin 8192 → Fin 3 → EReal) (sq w : Fin 4 → Fin 8192 → EReal)

/-- The reference's term for the pair (n, m): the distance times both weights. -/
def refTerm (b : Fin 4) (n m : Fin 8192) : EReal :=
  (Ideal.sqrt (max ((sq b n + sq b m) - ((2 : ℝ) : EReal) * ∑ k : Fin 3, c b n k * c b m k) 0) * w b n) * w b m

/-- The reference's result: the mean of all terms times one thousandth's word. -/
def refResult : EReal :=
  Ideal.div (0 + ∑ b : Fin 4, ∑ n : Fin 8192, ∑ m : Fin 8192, refTerm c sq w b n m) ((268435456 : ℝ) : EReal)
    * ((8589935 / 8589934592 : ℝ) : EReal)

/-- The kernel's term for the pair (n, m): the distance, with the second point pre-scaled by −2, times the column's weight only. -/
def kerTerm (b : Fin 4) (n m : Fin 8192) : EReal :=
  Ideal.sqrt (max ((sq b n + sq b m)
      + ((c b n 0 * (((-2 : ℝ) : EReal) * c b m 0) + c b n 1 * (((-2 : ℝ) : EReal) * c b m 1))
          + c b n 2 * (((-2 : ℝ) : EReal) * c b m 2))) 0) * w b m

/-- One block of a row: the row's weight times the block's sum. -/
def kerBlock (b : Fin 4) (n : Fin 8192) (J : Fin 4) : EReal :=
  w b n * ∑ j : Fin 2048, kerTerm c sq w b n (col J j)

/-- A row: its four blocks added in order, starting from zero. -/
def kerRow (b : Fin 4) (n : Fin 8192) : EReal :=
  (((0 + kerBlock c sq w b n 0) + kerBlock c sq w b n 1) + kerBlock c sq w b n 2) + kerBlock c sq w b n 3

/-- The kernel's result: the rows' total times one thousandth's word over 2^28. -/
def kerResult : EReal :=
  ((8589935 / 2305843009213693952 : ℝ) : EReal) * (0 + ∑ b : Fin 4, ∑ n : Fin 8192, kerRow c sq w b n)

end forms

/-! ## Over real data both are the same real number -/

section real

variable (cr : Fin 4 → Fin 8192 → Fin 3 → ℝ) (sr wr : Fin 4 → Fin 8192 → ℝ)

/-- The distance between points n and m of batch b from their squared norms and inner product. -/
def dist (b : Fin 4) (n m : Fin 8192) : ℝ :=
  Real.sqrt (max ((sr b n + sr b m) - 2 * ∑ k : Fin 3, cr b n k * cr b m k) 0)

variable {cr sr wr}
variable {c : Fin 4 → Fin 8192 → Fin 3 → EReal} {sq w : Fin 4 → Fin 8192 → EReal}
variable (hc : ∀ b n k, c b n k = (cr b n k : EReal)) (hs : ∀ b n, sq b n = (sr b n : EReal))
  (hw : ∀ b n, w b n = (wr b n : EReal))

include hc hs hw

theorem refTerm_coe (b : Fin 4) (n m : Fin 8192) :
    refTerm c sq w b n m = ((dist cr sr b n m * wr b n * wr b m : ℝ) : EReal) := by
  unfold refTerm dist
  simp only [hc, hs, hw]
  have h : ((sr b n : EReal) + (sr b m : EReal)) - ((2 : ℝ) : EReal) * ∑ k : Fin 3, (cr b n k : EReal) * (cr b m k : EReal)
      = (((sr b n + sr b m) - 2 * ∑ k : Fin 3, cr b n k * cr b m k : ℝ) : EReal) := by
    rw [EReal.coe_sub, EReal.coe_add, EReal.coe_mul, coe_sum]
    simp only [EReal.coe_mul]
  rw [h, sqrt_max_coe, ← EReal.coe_mul, ← EReal.coe_mul]

theorem kerTerm_coe (b : Fin 4) (n m : Fin 8192) :
    kerTerm c sq w b n m = ((dist cr sr b n m * wr b m : ℝ) : EReal) := by
  unfold kerTerm dist
  simp only [hc, hs, hw]
  have h : ((sr b n : EReal) + (sr b m : EReal))
      + (((cr b n 0 : EReal) * (((-2 : ℝ) : EReal) * (cr b m 0 : EReal)) + (cr b n 1 : EReal) * (((-2 : ℝ) : EReal) * (cr b m 1 : EReal)))
          + (cr b n 2 : EReal) * (((-2 : ℝ) : EReal) * (cr b m 2 : EReal)))
      = (((sr b n + sr b m) - 2 * ∑ k : Fin 3, cr b n k * cr b m k : ℝ) : EReal) := by
    simp only [← EReal.coe_mul, ← EReal.coe_add]
    refine congrArg Real.toEReal ?_
    rw [Fin.sum_univ_three]
    ring
  rw [h, sqrt_max_coe, ← EReal.coe_mul]

theorem kerBlock_coe (b : Fin 4) (n : Fin 8192) (J : Fin 4) :
    kerBlock c sq w b n J = ((wr b n * ∑ j : Fin 2048, dist cr sr b n (col J j) * wr b (col J j) : ℝ) : EReal) := by
  unfold kerBlock
  simp only [kerTerm_coe hc hs hw]
  rw [hw, ← coe_sum, ← EReal.coe_mul]

theorem kerRow_coe (b : Fin 4) (n : Fin 8192) :
    kerRow c sq w b n = ((∑ m : Fin 8192, dist cr sr b n m * wr b n * wr b m : ℝ) : EReal) := by
  unfold kerRow
  rw [kerBlock_coe hc hs hw, kerBlock_coe hc hs hw, kerBlock_coe hc hs hw, kerBlock_coe hc hs hw, zero_add,
    ← EReal.coe_add, ← EReal.coe_add, ← EReal.coe_add]
  refine congrArg Real.toEReal ?_
  have hb := sum_col (fun m => dist cr sr b n m * wr b m)
  rw [Fin.sum_univ_four] at hb
  calc wr b n * (∑ j : Fin 2048, dist cr sr b n (col 0 j) * wr b (col 0 j))
        + wr b n * (∑ j : Fin 2048, dist cr sr b n (col 1 j) * wr b (col 1 j))
        + wr b n * (∑ j : Fin 2048, dist cr sr b n (col 2 j) * wr b (col 2 j))
        + wr b n * (∑ j : Fin 2048, dist cr sr b n (col 3 j) * wr b (col 3 j))
      = wr b n * ((∑ j : Fin 2048, dist cr sr b n (col 0 j) * wr b (col 0 j))
        + (∑ j : Fin 2048, dist cr sr b n (col 1 j) * wr b (col 1 j))
        + (∑ j : Fin 2048, dist cr sr b n (col 2 j) * wr b (col 2 j))
        + (∑ j : Fin 2048, dist cr sr b n (col 3 j) * wr b (col 3 j))) := by ring
    _ = wr b n * ∑ m : Fin 8192, dist cr sr b n m * wr b m := by rw [hb]
    _ = ∑ m : Fin 8192, dist cr sr b n m * wr b n * wr b m := by
      rw [mul_sum]; exact sum_congr rfl fun m _ => by ring

/-- THE BRIDGE: over real points, norms and weights the kernel's arrangement and the reference's are one extended real. -/
theorem kerResult_eq_refResult : kerResult c sq w = refResult c sq w := by
  unfold kerResult refResult
  simp only [kerRow_coe hc hs hw, refTerm_coe hc hs hw]
  have hk : (∑ b : Fin 4, ∑ n : Fin 8192, ((∑ m : Fin 8192, dist cr sr b n m * wr b n * wr b m : ℝ) : EReal))
      = ((∑ b : Fin 4, ∑ n : Fin 8192, ∑ m : Fin 8192, dist cr sr b n m * wr b n * wr b m : ℝ) : EReal) := by
    rw [coe_sum]; exact sum_congr rfl fun b _ => (coe_sum _ _).symm
  have hr : (∑ b : Fin 4, ∑ n : Fin 8192, ∑ m : Fin 8192, ((dist cr sr b n m * wr b n * wr b m : ℝ) : EReal))
      = ((∑ b : Fin 4, ∑ n : Fin 8192, ∑ m : Fin 8192, dist cr sr b n m * wr b n * wr b m : ℝ) : EReal) := by
    rw [coe_sum]; refine sum_congr rfl fun b _ => ?_
    rw [coe_sum]; exact sum_congr rfl fun n _ => (coe_sum _ _).symm
  rw [hk, hr, zero_add, Ideal.div_coe (by norm_num : (268435456 : ℝ) ≠ 0), ← EReal.coe_mul, ← EReal.coe_mul,
    ← EReal.coe_mul]
  refine congrArg Real.toEReal ?_
  ring

end real

end Cert.PairSum

end
-- ==== Proof.KernelOutput.lean ====
/-
  The kernel's output array as one function of the six arrays it is launched on.

  Arrays: the points a0 [4, 8192, 3], the pre-scaled transposed points a1 [4, 3, 8192], the squared norms as a
  column a2 [4, 8192, 1] and as a row a3 [4, 1, 8192], the weights as a column a4 and as a row a5.  Entry (b, n, 0)
  of the output is the four block contributions of row n added in order from zero, block J contributing
      a4(b, n) · Σ_{j < 2048}  √ max ((a2(b, n) + a3(b, q)) + Σ_k a0(b, n, k) · a1(b, k, q), 0) · a5(b, q),   q = 2048 J + j.
  The block written at grid position t ≡ 3 (mod 4) is rows 1024 · (t / 4 mod 8) … of batch t / 32 of that function:
  its four nested updates read the blocks of positions t − 3 … t, which share t's batch and row block and run through
  the column blocks 0 … 3.  The 32 written blocks tile the array, so the array ends equal to the function.
-/
import proofs.«157831_j34067680591909_2_alg».proof.Proof.KernelPoints
import proofs.«157831_j34067680591909_2_alg».proof.Proof.KernelStep
import proofs.«157831_j34067680591909_2_alg».proof.Proof.KernelBlocks
import proofs.«157831_j34067680591909_2_alg».proof.Proof.PairSumAlgebra

noncomputable section

open Idealize.ShloMosaic Idealize.ShloMosaic.TcCoe Idealize.SL.Sem
open Idealize.ShloMosaic.Pipeline (Dat)

namespace Cert.KernelIdeal.Output

open Cert.KernelIdeal Cert.KernelIdeal.Gen Idealize.ShloMosaic.ValueIdx Cert.KernelIdeal.Cases Cert.KernelIdeal.Blocks
open Cert.PairSum (col)

/-! ## The function -/

section spec

variable (a0 : S4x8192x3.Idx → Elt Ideal .f32) (a1 : S4x3x8192.Idx → Elt Ideal .f32) (a2 : S4x8192x1.Idx → Elt Ideal .f32)
  (a3 : S4x1x8192.Idx → Elt Ideal .f32) (a4 : S4x8192x1.Idx → Elt Ideal .f32) (a5 : S4x1x8192.Idx → Elt Ideal .f32)

/-- The clipped distance between points n and q of batch b, times q's weight. -/
def arrTerm (b : Fin 4) (n q : Fin 8192) : EReal :=
  Ideal.sqrt (max ((a2 (ix3 b n (0 : Fin 1)) + a3 (ix3 b (0 : Fin 1) q))
      + ((a0 (ix3 b n (0 : Fin 3)) * a1 (ix3 b (0 : Fin 3) q) + a0 (ix3 b n (1 : Fin 3)) * a1 (ix3 b (1 : Fin 3) q))
        + a0 (ix3 b n (2 : Fin 3)) * a1 (ix3 b (2 : Fin 3) q)))
    (Ideal.ofBits .f32 0x00000000#32)) * a5 (ix3 b (0 : Fin 1) q)

/-- Column block J's contribution to row n. -/
def arrBlock (b : Fin 4) (n : Fin 8192) (J : Fin 4) : EReal :=
  a4 (ix3 b n (0 : Fin 1)) * ∑ j : Fin 2048, arrTerm a0 a1 a2 a3 a5 b n (col J j)

/-- Row n: the four contributions added in order from zero. -/
def arrRow (b : Fin 4) (n : Fin 8192) : EReal :=
  (((Ideal.ofBits .f32 0x00000000#32 + arrBlock a0 a1 a2 a3 a4 a5 b n 0) + arrBlock a0 a1 a2 a3 a4 a5 b n 1)
    + arrBlock a0 a1 a2 a3 a4 a5 b n 2) + arrBlock a0 a1 a2 a3 a4 a5 b n 3

/-- The output array. -/
def outArr : S4x8192x1.Idx → Elt Ideal .f32 :=
  fun i => arrRow a0 a1 a2 a3 a4 a5 ⟨(i 0).val, (i 0).isLt⟩ ⟨(i 1).val, (i 1).isLt⟩

end spec

variable (m : (ℓ : Loc nD τ sig) → Buf (Elt Ideal) ℓ)

/-! ## One point's contribution -/

/-- The contribution of the blocks at position t to row r of its row block is column block (t mod 4)'s contribution
    to row 1024 · (t / 4 mod 8) + r of batch t / 32. -/
theorem block_contrib (c : Dev nD) (t : Fin cfg0.N) (r : Fin 1024) (b : Fin 4) (n : Fin 8192) (J : Fin 4)
    (hb : b.val = t.val / 32) (hn : n.val = 1024 * (t.val / 4 % 8) + r.val) (hJ : J.val = t.val % 4)
    (x0 : Vec Ideal S1x1024x3 .f32) (x1 : Vec Ideal S1x3x2048 .f32) (x2 : Vec Ideal S1x1024x1 .f32)
    (x3 : Vec Ideal S1x1x2048 .f32) (x4 : Vec Ideal S1x1024x1 .f32) (x5 : Vec Ideal S1x1x2048 .f32)
    (h0 : x0 = iblk m c 0 t) (h1 : x1 = iblk m c 1 t) (h2 : x2 = iblk m c 2 t) (h3 : x3 = iblk m c 3 t)
    (h4 : x4 = iblk m c 4 t) (h5 : x5 = iblk m c 5 t) :
    x4 (ix3 (0 : Fin 1) r (0 : Fin 1))
        * ∑ j : Fin 2048, tileEntry x0 x1 x2 x3 r j * x5 (ix3 (0 : Fin 1) (0 : Fin 1) j)
      = arrBlock (V m c main_arg1) (V m c main_v2) (V m c main_v5) (V m c main_v6) (V m c main_v20) (V m c main_v21) b n J := by
  subst h0 h1 h2 h3 h4 h5
  unfold arrBlock
  rw [rowW_apply m c t r b n hb hn]
  refine congrArg (HMul.hMul _) (Finset.sum_congr rfl fun j _ => ?_)
  have hq : (col J j).val = 2048 * (t.val % 4) + j.val := by
    show 2048 * J.val + j.val = _
    rw [hJ]
  unfold tileEntry arrTerm
  rw [rowPts_apply m c t r (0 : Fin 3) b n hb hn, rowPts_apply m c t r (1 : Fin 3) b n hb hn,
    rowPts_apply m c t r (2 : Fin 3) b n hb hn,
    colPts_apply m c t (0 : Fin 3) j b (col J j) hb hq, colPts_apply m c t (1 : Fin 3) j b (col J j) hb hq,
    colPts_apply m c t (2 : Fin 3) j b (col J j) hb hq,
    rowSq_apply m c t r b n hb hn, colSq_apply m c t j b (col J j) hb hq, colW_apply m c t j b (col J j) hb hq]

/-- One update, read at row r: the running sum plus that contribution. -/
theorem stepAt_apply (c : Dev nD) (t : Fin cfg0.N) (acc : Vec Ideal S1024x1 .f32) (r : Fin 1024) (b : Fin 4) (n : Fin 8192)
    (J : Fin 4) (hb : b.val = t.val / 32) (hn : n.val = 1024 * (t.val / 4 % 8) + r.val) (hJ : J.val = t.val % 4) :
    stepAt m c t acc (ix2 r (0 : Fin 1))
      = acc (ix2 r (0 : Fin 1)) + arrBlock (V m c main_arg1) (V m c main_v2) (V m c main_v5) (V m c main_v6) (V m c main_v20) (V m c main_v21) b n J := by
  unfold stepAt
  exact (step_apply (iblk m c 0 t) (iblk m c 1 t) (iblk m c 2 t) (iblk m c 3 t) (iblk m c 4 t) (iblk m c 5 t) acc r).trans
    (congrArg (fun z => acc (ix2 r (0 : Fin 1)) + z) (block_contrib m c t r b n J hb hn hJ _ _ _ _ _ _ rfl rfl rfl rfl rfl rfl))

/-! ## The written block -/

/-- Entry (0, r, 0) of the block written at a position t ≡ 3 (mod 4). -/
theorem written_entry (c : Dev nD) (t : Fin cfg0.N) (h3 : t.val % 4 = 3) (r : Fin 1024) (b : Fin 4) (n : Fin 8192)
    (hb : b.val = t.val / 32) (hn : n.val = 1024 * (t.val / 4 % 8) + r.val) :
    (k0_pay2 (stepAt m c t (stepAt m c (before t) (stepAt m c (before (before t))
        (stepAt m c (before (before (before t))) zeroCol)))) : Vec Ideal S1x1024x1 .f32) (ix3 (0 : Fin 1) r (0 : Fin 1))
      = arrRow (V m c main_arg1) (V m c main_v2) (V m c main_v5) (V m c main_v6) (V m c main_v20) (V m c main_v21) b n := by
  have hN : cfg0.N = 128 := N_0
  have ht : t.val < 128 := hN ▸ t.isLt
  rw [outBlock_apply,
    stepAt_apply m c t _ r b n 3 hb hn (by show 3 = t.val % 4; omega),
    stepAt_apply m c (before t) _ r b n 2 (by show b.val = (t.val - 1) / 32; omega)
      (by show n.val = 1024 * ((t.val - 1) / 4 % 8) + r.val; omega) (by show 2 = (t.val - 1) % 4; omega),
    stepAt_apply m c (before (before t)) _ r b n 1 (by show b.val = (t.val - 1 - 1) / 32; omega)
      (by show n.val = 1024 * ((t.val - 1 - 1) / 4 % 8) + r.val; omega) (by show 1 = (t.val - 1 - 1) % 4; omega),
    stepAt_apply m c (before (before (before t))) _ r b n 0 (by show b.val = (t.val - 1 - 1 - 1) / 32; omega)
      (by show n.val = 1024 * ((t.val - 1 - 1 - 1) / 4 % 8) + r.val; omega) (by show 0 = (t.val - 1 - 1 - 1) % 4; omega),
    zeroCol_apply]
  rfl

/-- WHAT POSITION t WRITES BACK is block t of the function of the six arrays. -/
theorem flushed_eq (c : Dev nD) (t : Fin cfg0.N) (hf : (cfg0.win 6).flush t = true) :
    (dats m 0 c).flushed 6 t = ((cfg0.win 6).blk t).view.read (Elt Ideal) (outArr (V m c main_arg1) (V m c main_v2) (V m c main_v5) (V m c main_v6) (V m c main_v20) (V m c main_v21)) := by
  have h3 : t.val % 4 = 3 := (flush0_6 t).mp hf
  have hN : cfg0.N = 128 := N_0
  have ht : t.val < 128 := hN ▸ t.isLt
  obtain ⟨-, -, -, -, -, -, ⟨e0, e1, e2⟩⟩ := idx_facts t
  show (cfg0.win 6).cut (grid0.coords t) ((dats m 0 c).after 6 t) = _
  rw [after0_6, out_at_last m c t h3]
  refine funext fun y => ?_
  obtain ⟨r, rfl⟩ : ∃ r : Fin 1024, y = ix3 (0 : Fin 1) r (0 : Fin 1) := ⟨⟨(y 1).val, (y 1).isLt⟩, by
    funext a
    apply Fin.ext
    match a with
    | ⟨0, _⟩ => show (y 0).val = 0; have h : (y 0).val < 1 := (y 0).isLt; omega
    | ⟨1, _⟩ => rfl
    | ⟨2, _⟩ => show (y 2).val = 0; have h : (y 2).val < 1 := (y 2).isLt; omega⟩
  rw [View.read_apply]
  refine (written_entry m c t h3 r ⟨t.val / 32, by omega⟩ ⟨1024 * (t.val / 4 % 8) + r.val, by omega⟩ rfl rfl).trans ?_
  unfold outArr
  congr 1
  · apply Fin.ext
    show t.val / 32 = win0_6.index t (0 : Fin 3) * 1 + 1 * 0
    omega
  · apply Fin.ext
    show 1024 * (t.val / 4 % 8) + r.val = win0_6.index t (1 : Fin 3) * 1024 + 1 * r.val
    omega

/-- Every entry of the output array lies in a written block: row n of batch b in the block of position 32 b + 4 (n / 1024) + 3. -/
theorem cover (i : S4x8192x1.Idx) :
    ∃ t : Fin cfg0.N, (cfg0.win 6).flush t = true ∧ i ∈ ((cfg0.win 6).blk t).view.set := by
  have hi0 : (i 0).val < 4 := (i 0).isLt
  have hi1 : (i 1).val < 8192 := (i 1).isLt
  have hi2 : (i 2).val < 1 := (i 2).isLt
  have hN : cfg0.N = 128 := N_0
  obtain ⟨t, ht⟩ : ∃ t : Fin cfg0.N, t.val = 32 * (i 0).val + 4 * ((i 1).val / 1024) + 3 :=
    ⟨⟨32 * (i 0).val + 4 * ((i 1).val / 1024) + 3, by rw [hN]; omega⟩, rfl⟩
  obtain ⟨-, -, -, -, -, -, ⟨e0, e1, e2⟩⟩ := idx_facts t
  refine ⟨t, (flush0_6 t).mpr (by omega), ?_⟩
  show i ∈ ((View.whole main_v22).slice (win0_6.rect t)).set
  rw [View.set_slice_whole, Rect.mem_set_unit]
  intro a
  match a with
  | ⟨0, _⟩ =>
    show win0_6.index t (0 : Fin 3) * 1 ≤ (i 0).val ∧ (i 0).val < win0_6.index t (0 : Fin 3) * 1 + 1
    omega
  | ⟨1, _⟩ =>
    show win0_6.index t (1 : Fin 3) * 1024 ≤ (i 1).val ∧ (i 1).val < win0_6.index t (1 : Fin 3) * 1024 + 1024
    omega
  | ⟨2, _⟩ =>
    show win0_6.index t (2 : Fin 3) * 1 ≤ (i 2).val ∧ (i 2).val < win0_6.index t (2 : Fin 3) * 1 + 1
    omega

/-- THE OUTPUT ARRAY after the run is the function of the six arrays as the region finds them. -/
theorem final (c : Dev nD) : (dats m 0 c).arrAt 6 cfg0.N = outArr (V m c main_arg1) (V m c main_v2) (V m c main_v5) (V m c main_v6) (V m c main_v20) (V m c main_v21) :=
  (dats m 0 c).arrAt_eq_of_cover 6 (outArr (V m c main_arg1) (V m c main_v2) (V m c main_v5) (V m c main_v6) (V m c main_v20) (V m c main_v21)) (flushed_eq m c) (cover)

end Cert.KernelIdeal.Output

end
-- ==== Proof.Consts.lean ====
/-
  The float literals the two programs spell, as the extended reals their bit patterns denote.

  The kernel's final scale 0x2C83126F and the reference's 0x3A83126F (the single-precision rounding of one
  thousandth) have the same significand, 8589935, and exponents 28 apart: the first is the second divided by
  2^28 = 4 * 8192 * 8192, the number of entries the reference's mean divides by (its literal 0x4D800000).
-/
import Idealize.ShloMosaic.PureOps.Ideal
import Idealize.ShloMosaic.PureOps.Ideal.Laws

noncomputable section

namespace Cert.Consts

open Idealize.ShloMosaic

/-- The pattern of -2.0 denotes the real -2. -/
theorem ofBits_neg_two : Ideal.ofBits .f32 0xC0000000#32 = (((-2 : ℝ)) : EReal) := by
  simp [Ideal.ofBits, Ideal.ieee, -EReal.coe_mul]; norm_num

/-- The pattern of 2.0 denotes the real 2. -/
theorem ofBits_two : Ideal.ofBits .f32 0x40000000#32 = ((2 : ℝ) : EReal) := by
  simp [Ideal.ofBits, Ideal.ieee, -EReal.coe_mul]; norm_num

/-- The pattern of negative infinity denotes the bottom element. -/
theorem ofBits_neg_inf : Ideal.ofBits .f32 0xFF800000#32 = (⊥ : EReal) := by
  simp [Ideal.ofBits, Ideal.ieee]

/-- The reference's divisor, the number of entries of a [4, 8192, 8192] array: 2^28. -/
theorem ofBits_count : Ideal.ofBits .f32 0x4D800000#32 = ((268435456 : ℝ) : EReal) := by
  simp [Ideal.ofBits, Ideal.ieee, -EReal.coe_mul]; norm_num

/-- The reference's scale: the single-precision word nearest to one thousandth, 8589935 / 2^33. -/
theorem ofBits_milli : Ideal.ofBits .f32 0x3A83126F#32 = ((8589935 / 8589934592 : ℝ) : EReal) := by
  simp [Ideal.ofBits, Ideal.ieee, -EReal.coe_mul]; norm_num

/-- The kernel's scale: the same significand 28 binades lower, 8589935 / 2^61. -/
theorem ofBits_milli_over_count :
    Ideal.ofBits .f32 0x2C83126F#32 = ((8589935 / 2305843009213693952 : ℝ) : EReal) := by
  simp [Ideal.ofBits, Ideal.ieee, -EReal.coe_mul]; norm_num

end Cert.Consts

end
-- ==== Proof.LibIdx3Sum.lean ====
/-
  A sum over the indices of a three-axis array is the triple sum over its coordinates.

  The index set of an array [n0, n1, n2] is in bijection with Fin n0 x Fin n1 x Fin n2, each index being the triple
  of its coordinates; re-indexing a finite sum through a bijection does not change it, and a sum over a product is
  the iterated sum.  Holds in any commutative additive monoid.
-/
import Idealize.ShloMosaic.Lib.ValueIdx

namespace Cert.Lib.Idx3Sum

open Idealize.ShloMosaic Idealize.ShloMosaic.ValueIdx

/-- An index of a three-axis array is the triple of its coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a three-axis array, in any commutative additive monoid, is the iterated sum over the
    three coordinates of the summand at the index with those coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.Lib.Idx3Sum
-- ==== Proof.RefResult.lean ====
/-
  The reference's result, read down to its entries.

  The reference forms, for every batch b and every ordered pair of points (n, q), the clipped distance
  √ max ((s b n + s b q) − 2 · ⟨c b n, c b q⟩, 0), multiplies it by the weights of n and of q, sums all
  4 · 8192 · 8192 terms from zero, divides by that count and multiplies by the word nearest one thousandth.
  Here s is the stage that sums the squares of a point's coordinates and w the stage that takes the second
  softmax component; both are kept as the named stages, since the kernel's program computes them by the same
  operations.  The literals are replaced by the numbers they denote.
-/
import proofs.«157831_j34067680591909_2_alg».proof.Proof.Gen.ReferenceIdeal.Read
import proofs.«157831_j34067680591909_2_alg».proof.Proof.PairSumAlgebra
import proofs.«157831_j34067680591909_2_alg».proof.Proof.Consts
import proofs.«157831_j34067680591909_2_alg».proof.Proof.LibIdx3Sum

noncomputable section

open Idealize.ShloMosaic Idealize.ShloMosaic.TcCoe Idealize.SL.Sem

namespace Cert.RefSide

open Cert.ReferenceIdeal Cert.ReferenceIdeal.Read Idealize.ShloMosaic.ValueIdx Cert.PairSum

/-- The points' coordinates, by batch, point and axis. -/
def pts (x1 : (⟨S4x8192x3, .f32⟩ : BufTy).Contents (Elt Ideal)) (b : Fin 4) (n : Fin 8192) (k : Fin 3) : EReal :=
  x1 (ix3 b n k)

/-- The points' squared norms: the stage that sums the squares over the coordinate axis. -/
def sqn (x1 : (⟨S4x8192x3, .f32⟩ : BufTy).Contents (Elt Ideal)) (b : Fin 4) (n : Fin 8192) : EReal :=
  val_main_v1 (F := Ideal) x1 (ix2 b n)

/-- The points' weights: the stage that takes the second component of the softmax over the two channels. -/
def wts (x0 : (⟨S4x2x8192, .f32⟩ : BufTy).Contents (Elt Ideal)) (b : Fin 4) (n : Fin 8192) : EReal :=
  val_main_v26 (F := Ideal) x0 (ix2 b n)

/-- The term of the pair (n, q) of batch b. -/
theorem term_eq (x0 : (⟨S4x2x8192, .f32⟩ : BufTy).Contents (Elt Ideal)) (x1 : (⟨S4x8192x3, .f32⟩ : BufTy).Contents (Elt Ideal))
    (b : Fin 4) (n q : Fin 8192) :
    val_main_v32 (F := Ideal) x0 x1 (ix3 b n q) = refTerm (pts x1) (sqn x1) (wts x0) b n q := by
  have i2 : idx_main_v2 (idx_main_v4 (ix3 b n q)) = ix2 b n :=
    funext fun a => Fin.ext (by match a with | ⟨0, _⟩ => rfl | ⟨1, _⟩ => rfl)
  have i3 : idx_main_v3 (idx_main_v5 (ix3 b n q)) = ix2 b q :=
    funext fun a => Fin.ext (by match a with | ⟨0, _⟩ => rfl | ⟨1, _⟩ => rfl)
  have i27 : idx_main_v27 (idx_main_v28 (ix3 b n q)) = ix2 b n :=
    funext fun a => Fin.ext (by match a with | ⟨0, _⟩ => rfl | ⟨1, _⟩ => rfl)
  have i30 : idx_main_v30 (idx_main_v31 (ix3 b n q)) = ix2 b q :=
    funext fun a => Fin.ext (by match a with | ⟨0, _⟩ => rfl | ⟨1, _⟩ => rfl)
  have il : ∀ k : Fin 3, lidx_main_v7 (ix3 b n q) k = ix3 b n k := fun k =>
    funext fun a => Fin.ext (by match a with | ⟨0, _⟩ => rfl | ⟨1, _⟩ => rfl | ⟨2, _⟩ => rfl)
  have ir : ∀ k : Fin 3, ridx_main_v7 (ix3 b n q) k = ix3 b q k := fun k =>
    funext fun a => Fin.ext (by match a with | ⟨0, _⟩ => rfl | ⟨1, _⟩ => rfl | ⟨2, _⟩ => rfl)
  rw [val_main_v32_apply, val_main_v29_apply, val_main_v13_apply, val_main_v12_apply, val_main_v10_apply, val_main_v6_apply,
    val_main_v4_apply, val_main_v2_apply, val_main_v5_apply, val_main_v3_apply, val_main_v9_apply, val_main_v8_apply,
    val_main_cst_0_apply, val_main_v7_apply, val_main_v11_apply, val_main_cst_1_apply, val_main_v28_apply, val_main_v27_apply,
    val_main_v31_apply, val_main_v30_apply, i2, i3, i27, i30]
  simp only [il, ir, Ideal.mulf_def, Ideal.addf_def, Ideal.subf_def, Ideal.maximumf_def, Ideal.hostUnary_sqrt_def, Ideal.ofBits_def,
    Cert.Consts.ofBits_two, Ideal.ofBits_zero_f32]
  rfl

/-- THE REFERENCE'S RESULT is the reference arrangement of the points, their squared norms and their weights. -/
theorem result_eq (x0 : (⟨S4x2x8192, .f32⟩ : BufTy).Contents (Elt Ideal)) (x1 : (⟨S4x8192x3, .f32⟩ : BufTy).Contents (Elt Ideal)) :
    val_main_v35 (F := Ideal) x0 x1 ix0 = refResult (pts x1) (sqn x1) (wts x0) := by
  rw [val_main_v35_apply, val_main_v34_apply, val_main_v33_apply, val_main_cst_7_apply, val_main_cst_6_apply, val_main_cst_5_apply,
    Cert.Lib.Idx3Sum.sum_idx3]
  simp only [Ideal.mulf_def, Ideal.hostDivf_def, Ideal.ofBits_def, Cert.Consts.ofBits_milli, Cert.Consts.ofBits_count,
    Ideal.ofBits_zero_f32, term_eq]
  rfl

end Cert.RefSide

end
-- ==== Proof.KernelArrays.lean ====
/-
  The arrays the kernel is launched on, as functions of the two inputs.

  Before the launch the kernel's program computes, from the points c and the logits x: the transposed points scaled
  by −2; the squared norms s as a column and as a row; the softmax weights w as a column and as a row.  The squared
  norms and the weights are computed by the very operations the reference uses for its own stages, so they are
  identified with those stages outright rather than read again.  Entry by entry:
    scaled (b, k, q) = −2 · c (b, q, k);   column (b, n, 0) = s (b, n), row (b, 0, q) = s (b, q);   likewise for w.
-/
import proofs.«157831_j34067680591909_2_alg».proof.Proof.Gen.KernelIdeal.Frame
import proofs.«157831_j34067680591909_2_alg».proof.Proof.RefResult
import Idealize.ShloMosaic.Lib.ValueLayout
import Idealize.ShloMosaic.Lib.StableHlo.Run

noncomputable section

open Idealize.ShloMosaic Idealize.ShloMosaic.TcCoe Idealize.SL.Sem

namespace Cert.KernelIdeal.Arrays

open Cert.KernelIdeal Cert.KernelIdeal.Gen Idealize.ShloMosaic.ValueIdx Idealize.ShloMosaic.StableHlo

variable (m : (ℓ : Loc nD τ sig) → Buf (Elt Ideal) ℓ)

/-- The logits as launched. -/
abbrev logits (c : Dev nD) : S4x2x8192.Idx → Elt Ideal .f32 := m ((c : Thread nD τ).loc main_arg0)
/-- The points as launched. -/
abbrev points (c : Dev nD) : S4x8192x3.Idx → Elt Ideal .f32 := m ((c : Thread nD τ).loc main_arg1)

/-- The pre-scaled transposed points are −2 times the transposed points. -/
theorem scaled_eq (c : Dev nD) : (V m c main_v2 : S4x3x8192.Idx → Elt Ideal .f32)
    = mulf (broadcastInDim S4x3x8192 ![] bcast_S_S4x3x8192 (constant (F := Ideal) S_ .f32 0xC0000000#32))
        (transpose S4x3x8192 [0, 2, 1] (points m c) transposes_S4x8192x3_S4x3x8192_0_2_1) := by
  show StableHlo.after hostOps0 (fun b => m (c, b)) (Proc.devRef .tc main_v2) = _
  after_results <;> rfl

/-- The squared norms as a column are the reference's column stage of the same points. -/
theorem sqCol_eq (c : Dev nD) : (V m c main_v5 : S4x8192x1.Idx → Elt Ideal .f32)
    = Cert.ReferenceIdeal.Read.val_main_v2 (F := Ideal) (points m c) := by
  show StableHlo.after hostOps0 (fun b => m (c, b)) (Proc.devRef .tc main_v5) = _
  after_results <;> rfl

/-- The squared norms as a row are the reference's row stage. -/
theorem sqRow_eq (c : Dev nD) : (V m c main_v6 : S4x1x8192.Idx → Elt Ideal .f32)
    = Cert.ReferenceIdeal.Read.val_main_v3 (F := Ideal) (points m c) := by
  show StableHlo.after hostOps0 (fun b => m (c, b)) (Proc.devRef .tc main_v6) = _
  after_results <;> rfl

/-- The weights as a column are the reference's column stage of the same logits. -/
theorem wCol_eq (c : Dev nD) : (V m c main_v20 : S4x8192x1.Idx → Elt Ideal .f32)
    = Cert.ReferenceIdeal.Read.val_main_v27 (F := Ideal) (logits m c) := by
  show StableHlo.after hostOps0 (fun b => m (c, b)) (Proc.devRef .tc main_v20) = _
  after_results <;> rfl

/-- The weights as a row are the reference's row stage. -/
theorem wRow_eq (c : Dev nD) : (V m c main_v21 : S4x1x8192.Idx → Elt Ideal .f32)
    = Cert.ReferenceIdeal.Read.val_main_v30 (F := Ideal) (logits m c) := by
  show StableHlo.after hostOps0 (fun b => m (c, b)) (Proc.devRef .tc main_v21) = _
  after_results <;> rfl

/-! ## Read at an entry -/

open Cert.RefSide Cert.ReferenceIdeal.Read

theorem points_apply (c : Dev nD) (b : Fin 4) (n : Fin 8192) (k : Fin 3) :
    (V m c main_arg1 : S4x8192x3.Idx → Elt Ideal .f32) (ix3 b n k) = pts (points m c) b n k := by
  rw [V_main_arg1]
  rfl

theorem scaled_apply (c : Dev nD) (b : Fin 4) (k : Fin 3) (q : Fin 8192) :
    (V m c main_v2 : S4x3x8192.Idx → Elt Ideal .f32) (ix3 b k q) = (((-2 : ℝ)) : EReal) * pts (points m c) b q k := by
  rw [scaled_eq]
  show (broadcastInDim S4x3x8192 ![] bcast_S_S4x3x8192 (constant (F := Ideal) S_ .f32 0xC0000000#32)) (ix3 b k q)
      * (transpose S4x3x8192 [0, 2, 1] (points m c) transposes_S4x8192x3_S4x3x8192_0_2_1) (ix3 b k q) = _
  rw [transpose_ix3_021_apply (points m c) transposes_S4x8192x3_S4x3x8192_0_2_1 b k q]
  show Ideal.ofBits .f32 0xC0000000#32 * _ = _
  rw [Cert.Consts.ofBits_neg_two]
  rfl

theorem sqCol_apply (c : Dev nD) (b : Fin 4) (n : Fin 8192) :
    (V m c main_v5 : S4x8192x1.Idx → Elt Ideal .f32) (ix3 b n (0 : Fin 1)) = sqn (points m c) b n := by
  rw [sqCol_eq, val_main_v2_apply]
  exact congrArg (val_main_v1 (F := Ideal) (points m c))
    (funext fun a => Fin.ext (by match a with | ⟨0, _⟩ => rfl | ⟨1, _⟩ => rfl))

theorem sqRow_apply (c : Dev nD) (b : Fin 4) (q : Fin 8192) :
    (V m c main_v6 : S4x1x8192.Idx → Elt Ideal .f32) (ix3 b (0 : Fin 1) q) = sqn (points m c) b q := by
  rw [sqRow_eq, val_main_v3_apply]
  exact congrArg (val_main_v1 (F := Ideal) (points m c))
    (funext fun a => Fin.ext (by match a with | ⟨0, _⟩ => rfl | ⟨1, _⟩ => rfl))

theorem wCol_apply (c : Dev nD) (b : Fin 4) (n : Fin 8192) :
    (V m c main_v20 : S4x8192x1.Idx → Elt Ideal .f32) (ix3 b n (0 : Fin 1)) = wts (logits m c) b n := by
  rw [wCol_eq, val_main_v27_apply]
  exact congrArg (val_main_v26 (F := Ideal) (logits m c))
    (funext fun a => Fin.ext (by match a with | ⟨0, _⟩ => rfl | ⟨1, _⟩ => rfl))

theorem wRow_apply (c : Dev nD) (b : Fin 4) (q : Fin 8192) :
    (V m c main_v21 : S4x1x8192.Idx → Elt Ideal .f32) (ix3 b (0 : Fin 1) q) = wts (logits m c) b q := by
  rw [wRow_eq, val_main_v30_apply]
  exact congrArg (val_main_v26 (F := Ideal) (logits m c))
    (funext fun a => Fin.ext (by match a with | ⟨0, _⟩ => rfl | ⟨1, _⟩ => rfl))

end Cert.KernelIdeal.Arrays

end
-- ==== Proof.KernelResult.lean ====
/-
  The kernel program's result.

  After the launch the program sums every entry of the output array [4, 8192, 1] from zero and multiplies the total
  by its scale.  The sum over the array's indices is the sum over batches and rows (the last axis has one entry), and
  row (b, n) of the output array is the kernel arrangement's row once the six launch arrays are written in terms of
  the points c, their squared norms s and the weights w.  So the result is the kernel arrangement of (c, s, w).
-/
import proofs.«157831_j34067680591909_2_alg».proof.Proof.KernelOutput
import proofs.«157831_j34067680591909_2_alg».proof.Proof.KernelArrays
import proofs.«157831_j34067680591909_2_alg».proof.Proof.LibIdx3Sum
import proofs.«157831_j34067680591909_2_alg».proof.Proof.Consts
import Idealize.ShloMosaic.Lib.StableHlo.Run

noncomputable section

open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx Idealize.ShloMosaic.StableHlo
open Cert.KernelIdeal.Output Cert.KernelIdeal.Arrays Cert.PairSum Cert.RefSide

/-! ## The output array's row in terms of points, squared norms and weights -/

/-- With the six arrays expressed through (c, s, w), a row of the output function is the kernel arrangement's row. -/
theorem arrRow_eq_kerRow (a0 : S4x8192x3.Idx → Elt Ideal .f32) (a1 : S4x3x8192.Idx → Elt Ideal .f32)
    (a2 : S4x8192x1.Idx → Elt Ideal .f32) (a3 : S4x1x8192.Idx → Elt Ideal .f32) (a4 : S4x8192x1.Idx → Elt Ideal .f32)
    (a5 : S4x1x8192.Idx → Elt Ideal .f32) (c : Fin 4 → Fin 8192 → Fin 3 → EReal) (s w : Fin 4 → Fin 8192 → EReal)
    (h0 : ∀ b n k, a0 (ix3 b n k) = c b n k) (h1 : ∀ b k q, a1 (ix3 b k q) = (((-2 : ℝ)) : EReal) * c b q k)
    (h2 : ∀ b n, a2 (ix3 b n (0 : Fin 1)) = s b n) (h3 : ∀ b q, a3 (ix3 b (0 : Fin 1) q) = s b q)
    (h4 : ∀ b n, a4 (ix3 b n (0 : Fin 1)) = w b n) (h5 : ∀ b q, a5 (ix3 b (0 : Fin 1) q) = w b q)
    (b : Fin 4) (n : Fin 8192) : arrRow a0 a1 a2 a3 a4 a5 b n = kerRow c s w b n := by
  unfold arrRow kerRow arrBlock kerBlock arrTerm kerTerm
  simp only [h0, h1, h2, h3, h4, h5, Ideal.ofBits_zero_f32]

variable (m : (ℓ : Loc nD τ sig) → Buf (Elt Ideal) ℓ) (ρ : Dev nD → PrngReg)

/-! ## The lines after the launch -/

/-- The total of an array [4, 8192, 1] from zero, times the scale. -/
def tailOf (out : S4x8192x1.Idx → Elt Ideal .f32) : (⟨S_, .f32⟩ : BufTy).Contents (Elt Ideal) :=
  mulf (constant (F := Ideal) S_ .f32 0x2C83126F#32)
    (Host.reduceAdd (F := Ideal) out (constant (F := Ideal) S_ .f32 0x00000000#32) reducesTo_S4x8192x1_S_d0_1_2 h_S_)

/-- What the program's result buffer ends holding: the tail of the output array's function. -/
theorem tail_eq (c : Dev nD) :
    Pipeline.afterTail₀ cfgs (dats m) 0 (V0 m) [hostOps1] c main_v24 = tailOf (outArr (V m c main_arg1) (V m c main_v2) (V m c main_v5) (V m c main_v6) (V m c main_v20) (V m c main_v21)) := by
  unfold Pipeline.afterTail₀
  show StableHlo.after hostOps1 _ (Proc.devRef .tc main_v24) = _
  after_results
  rw [(Pipeline.withArrays_arr spec0 launch0.win.arr_inj c _ _ 6).trans (final m c)]
  rfl

/-- THE RUN, READ: the result buffer at the tail of the output function, the arguments unchanged. -/
theorem run : θ_run defs (onTc (τ := τ) (main (F := Ideal))) ⟨m, fun _ => 0, ρ⟩ fun r => ∀ c : Dev nD,
      r.2.mem ((c : Thread nD τ).loc main_v24) = tailOf (outArr (V m c main_arg1) (V m c main_v2) (V m c main_v5) (V m c main_v6) (V m c main_v20) (V m c main_v21))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v24 (Pipeline.mem_restRefs_of main_v24 (by decide) (by decide))).trans (tail_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c)))⟩)
    (run_main m ρ)

/-! ## The result as the kernel arrangement -/

/-- The tail of the output function is the kernel arrangement of the launched points, their squared norms and the weights. -/
theorem result_eq (c : Dev nD) :
    tailOf (outArr (V m c main_arg1) (V m c main_v2) (V m c main_v5) (V m c main_v6) (V m c main_v20) (V m c main_v21)) ix0 = kerResult (pts (points m c)) (sqn (points m c)) (wts (logits m c)) := by
  unfold tailOf kerResult
  show Ideal.ofBits .f32 0x2C83126F#32
      * Ideal.hostReduceAdd reducesTo_S4x8192x1_S_d0_1_2 (outArr (V m c main_arg1) (V m c main_v2) (V m c main_v5) (V m c main_v6) (V m c main_v20) (V m c main_v21)) (Ideal.ofBits .f32 0x00000000#32) ix0 = _
  rw [Ideal.hostReduceAdd_total reducesTo_S4x8192x1_S_d0_1_2 (fun b => b.elim0), Cert.Lib.Idx3Sum.sum_idx3,
    Cert.Consts.ofBits_milli_over_count, Ideal.ofBits_zero_f32]
  refine congrArg (fun z => ((8589935 / 2305843009213693952 : ℝ) : EReal) * (0 + z))
    (Finset.sum_congr rfl fun b _ => Finset.sum_congr rfl fun n _ => ?_)
  rw [Fin.sum_univ_one]
  exact arrRow_eq_kerRow _ _ _ _ _ _ _ _ _ (points_apply m c) (scaled_apply m c) (sqCol_apply m c) (sqRow_apply m c)
    (wCol_apply m c) (wRow_apply m c) b n

end Cert.KernelIdeal.Result

end
-- ==== Proof.RefReal.lean ====
/-
  Over real inputs the squared norms and the softmax weights are real numbers.

  A squared norm is zero plus a sum of three products of reals.  For the weight, the channel maximum is the larger
  of −∞ and a maximum of two reals taken from −∞, hence a real; each channel minus it is a real, its exponential a
  positive real, the two exponentials' sum from zero a positive real, and the second exponential divided by that
  nonzero real is again a real.  Every step is stated for all indices of its stage, so no index bookkeeping is needed.
-/
import proofs.«157831_j34067680591909_2_alg».proof.Proof.RefResult

noncomputable section

open Idealize.ShloMosaic Idealize.ShloMosaic.TcCoe Idealize.SL.Sem

namespace Cert.RefSide

open Cert.ReferenceIdeal Cert.ReferenceIdeal.Gen Cert.ReferenceIdeal.Read Idealize.ShloMosaic.ValueIdx Cert.PairSum

/-- A maximum of reals taken from −∞ over a finite set is −∞ on the empty set and a real otherwise. -/
theorem fold_max_real {ι : Type*} (s : Finset ι) (g : ι → EReal) (hg : ∀ i, ∃ r : ℝ, g i = (r : EReal)) :
    (s = ∅ ∧ s.fold (FloatOps.maximumf (F := Ideal) (φ := .f32)) (⊥ : EReal) g = ⊥)
      ∨ ∃ r : ℝ, s.fold (FloatOps.maximumf (F := Ideal) (φ := .f32)) (⊥ : EReal) g = (r : EReal) := by
  classical
  refine Finset.induction_on s ?_ ?_
  · exact Or.inl ⟨rfl, Finset.fold_empty⟩
  · intro a s ha ih
    right
    obtain ⟨ra, hra⟩ := hg a
    rw [Finset.fold_insert ha, hra]
    rcases ih with ⟨-, h⟩ | ⟨r, h⟩
    · exact ⟨ra, by rw [h]; exact max_eq_left bot_le⟩
    · exact ⟨max ra r, by rw [h]; exact (coe_max ra r).symm⟩

/-- A host maximum along one nonempty axis of an array of reals, taken from −∞, is a real. -/
theorem hostMax_real {s t u : Shape} {a : Fin s.rank} (x : s.Idx → EReal) (init : u.Idx → EReal) (h' : s.ReducesTo [a] t)
    (h : s.Reduces [a] t) (hu : 0 < u.numel) (j : t.Idx) (hx : ∀ i, ∃ r : ℝ, x i = (r : EReal))
    (hinit : init (Shape.Idx.first hu) = (⊥ : EReal)) (hne : 0 < s.size a) :
    ∃ r : ℝ, Host.reduce (FloatOps.maximumf (F := Ideal) (φ := .f32)) x init h' hu j = (r : EReal) := by
  rw [Host.reduce_eq_fold_single _ x init h' h hu j, hinit]
  rcases fold_max_real (Finset.univ : Finset (Fin (s.size a))) (x ∘ h.lift j) (fun k => hx _) with ⟨he, -⟩ | hr
  · exact absurd he (Finset.univ_nonempty_iff.2 ⟨⟨0, hne⟩⟩).ne_empty
  · exact hr

section

variable (x0 : (⟨S4x2x8192, .f32⟩ : BufTy).Contents (Elt Ideal)) (hx0 : ∀ i, ∃ r : ℝ, x0 i = (r : EReal))

include hx0

/-- The channel maximum is a real. -/
theorem max_real (j : S4x8192.Idx) : ∃ r : ℝ, val_main_v16 (F := Ideal) x0 j = (r : EReal) := by
  have h14 : ∃ r : ℝ, val_main_v14 (F := Ideal) x0 j = (r : EReal) := by
    unfold val_main_v14
    exact hostMax_real (s := S4x2x8192) (t := S4x8192) (u := S_) (a := 1) x0 (val_main_cst_2 (F := Ideal))
      reducesTo_S4x2x8192_S4x8192_d1 (by decide) h_S_ j hx0 Cert.Consts.ofBits_neg_inf (by decide)
  obtain ⟨r, hr⟩ := h14
  refine ⟨r, ?_⟩
  rw [val_main_v16_apply, val_main_v15_apply, val_main_cst_3_apply, hr]
  show max (Ideal.ofBits .f32 0xFF800000#32) (r : EReal) = r
  rw [Cert.Consts.ofBits_neg_inf]
  exact max_eq_right bot_le

/-- Each channel's exponential, after subtracting the maximum, is a positive real. -/
theorem exp_real (i : S4x2x8192.Idx) : ∃ r : ℝ, 0 < r ∧ val_main_v20 (F := Ideal) x0 i = (r : EReal) := by
  obtain ⟨a, ha⟩ := hx0 i
  obtain ⟨mx, hmx⟩ := max_real x0 hx0 (idx_main_v17 (idx_main_v18 i))
  refine ⟨Real.exp (a - mx), Real.exp_pos _, ?_⟩
  rw [val_main_v20_apply, val_main_v19_apply, val_main_v18_apply, val_main_v17_apply, ha, hmx]
  show Ideal.exp ((a : EReal) - (mx : EReal)) = _
  rw [← EReal.coe_sub, Ideal.exp_coe]

/-- The exponentials' sum is a positive real. -/
theorem sum_real (j : S4x8192.Idx) : ∃ r : ℝ, 0 < r ∧ val_main_v21 (F := Ideal) x0 j = (r : EReal) := by
  choose e he using exp_real x0 hx0
  refine ⟨∑ k : Fin 2, e (idx_main_v21 j k), Finset.sum_pos (fun k _ => (he _).1) Finset.univ_nonempty, ?_⟩
  rw [val_main_v21_apply, val_main_cst_4_apply, coe_sum]
  show Ideal.ofBits .f32 0x00000000#32 + _ = _
  rw [Ideal.ofBits_zero_f32, zero_add]
  exact Finset.sum_congr rfl fun k _ => (he _).2

/-- The weight is a real. -/
theorem wts_real (b : Fin 4) (n : Fin 8192) : ∃ r : ℝ, wts x0 b n = (r : EReal) := by
  unfold wts
  rw [val_main_v26_apply, val_main_v25_apply, val_main_v24_apply, val_main_v23_apply, val_main_v22_apply]
  obtain ⟨e, -, he⟩ := exp_real x0 hx0 (idx_main_v25 (idx_main_v26 (ix2 b n)))
  obtain ⟨s, hs, hse⟩ := sum_real x0 hx0 (idx_main_v22 (idx_main_v23 (idx_main_v25 (idx_main_v26 (ix2 b n)))))
  refine ⟨e * (1 / s), ?_⟩
  rw [he, hse]
  show Ideal.div (e : EReal) (s : EReal) = _
  rw [Ideal.div_coe hs.ne', ← EReal.coe_mul]

end

/-- Over real points the squared norm is a real. -/
theorem sqn_real (x1 : (⟨S4x8192x3, .f32⟩ : BufTy).Contents (Elt Ideal)) (hx1 : ∀ i, ∃ r : ℝ, x1 i = (r : EReal))
    (b : Fin 4) (n : Fin 8192) : ∃ r : ℝ, sqn x1 b n = (r : EReal) := by
  choose p hp using hx1
  unfold sqn
  refine ⟨∑ k : Fin 3, p (idx_main_v1 (ix2 b n) k) * p (idx_main_v1 (ix2 b n) k), ?_⟩
  rw [val_main_v1_apply, val_main_cst_apply, coe_sum]
  show Ideal.ofBits .f32 0x00000000#32 + _ = _
  rw [Ideal.ofBits_zero_f32, zero_add]
  refine Finset.sum_congr rfl fun k _ => ?_
  rw [val_main_v0_apply, hp, EReal.coe_mul]
  rfl

end Cert.RefSide

end
-- ==== Proof.FiniteInputs.lean ====
/-
  What the precondition gives: every input entry is a real number.

  The precondition is the conjunction of two "all entries satisfy |x| < +∞" tests, each a reduction by "and" of
  entrywise comparisons.  A conjunction that is true has both halves true; a reduction by "and" that is true has every
  entry true; and an extended real whose absolute value is strictly below +∞ is neither infinity, hence a real.
-/
import proofs.«157831_j34067680591909_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

open Idealize.ShloMosaic

namespace Cert.FiniteInputs

open Cert.Pre_finite_inputs

/-- The scalar shape has one index. -/
instance : Subsingleton S_.Idx := ⟨fun a b => funext fun d => d.elim0⟩

/-- An extended real whose absolute value compares strictly below the +∞ word is a real number. -/
theorem real_of_abs_lt (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  induction x using EReal.rec with
  | bot => exfalso; simp [Ideal.cmp] at h
  | coe r => exact ⟨r, rfl⟩
  | top => exfalso; simp [Ideal.cmp] at h

/-- Under the precondition both input arrays hold real numbers only. -/
theorem inputs_real [Facts] (a0 : FVec Ideal S4x2x8192 .f32) (a1 : FVec Ideal S4x8192x3 .f32)
    (h : fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [fn] at h0
  obtain ⟨h1, h2⟩ := IntOp.andi_eq_one.1 h0
  refine ⟨fun i => ?_, fun i => ?_⟩
  · exact real_of_abs_lt _ (Host.reduce_andi_all _ _ _ _ _ h1 i)
  · exact real_of_abs_lt _ (Host.reduce_andi_all _ _ _ _ _ h2 i)

end Cert.FiniteInputs

end
-- ==== Proof.lean ====
/-
  The weighted mean pairwise distance: a tiled accumulating kernel against the direct formula.

  Both programs take logits x [4, 2, 8192] and points c [4, 8192, 3] and return one number.  With s (b, n) the squared
  norm of point n of batch b and w (b, n) the second softmax component of the two logits of that point, the reference
  returns
      ( Σ_b Σ_n Σ_q  √ max (s_n + s_q − 2 ⟨c_n, c_q⟩, 0) · w_n · w_q ) / 2^28 · m₀,        m₀ the word nearest 1/1000,
  while the kernel's program hands the kernel the points, their transpose scaled by −2, and s and w each as a column
  and as a row; the kernel walks (batch, row block of 1024, column block of 2048), keeps one running sum per row,
  adds at each step w_n · Σ_q (distance · w_q) over the step's 2048 columns, writes the row sums out after the
  fourth column block, and the program sums the rows and multiplies by m₀ / 2^28.

  The run of the kernel's program is read off its generated frame run (the written blocks tile the output array,
  which therefore is one function of the launch arrays; the lines after the launch are applied to it); the
  reference's run is its generated run, read stage by stage.  The precondition makes every input entry a real
  number, hence s and w real, and over real data the two arrangements are the same real number: −2 moves inside the
  inner product, w_n moves across the block sums, and four consecutive blocks of 2048 columns are all 8192 columns.
  The kernel's scale is exactly the reference's scale divided by 2^28, both being dyadic rationals with the same
  significand.  The idealization rewrote nothing, so it is preserved trivially.
-/
import proofs.«157831_j34067680591909_2_alg».proof.Defs
import proofs.«157831_j34067680591909_2_alg».proof.Proof.Gen.Kernel
import proofs.«157831_j34067680591909_2_alg».proof.Proof.Gen.Kernel.Frame
import proofs.«157831_j34067680591909_2_alg».proof.Proof.Gen.KernelIdeal
import proofs.«157831_j34067680591909_2_alg».proof.Proof.Gen.KernelIdeal.Frame
import proofs.«157831_j34067680591909_2_alg».proof.Proof.Gen.ReferenceIdeal
import proofs.«157831_j34067680591909_2_alg».proof.Proof.Gen.ReferenceIdeal.Run
import proofs.«157831_j34067680591909_2_alg».proof.Proof.Gen.ReferenceIdeal.Read
import proofs.«157831_j34067680591909_2_alg».proof.Proof.Gen.Pre_finite_inputs
import proofs.«157831_j34067680591909_2_alg».proof.Proof.KernelResult
import proofs.«157831_j34067680591909_2_alg».proof.Proof.RefReal
import proofs.«157831_j34067680591909_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- In exact arithmetic, from memories that agree on the logits and the points and hold real numbers there, the
    kernel's program ends at the kernel arrangement of (c, s, w) and the reference at the reference arrangement of
    the same data: one extended real. -/
theorem algebraic : Cert.algebraic_KernelIdeal_ReferenceIdeal := by
  intro m ρ m' ρ' hpre hagree
  refine ⟨fun c => Cert.KernelIdeal.Result.tailOf (Cert.KernelIdeal.Output.outArr
      (Cert.KernelIdeal.Gen.V m c Cert.KernelIdeal.main_arg1) (Cert.KernelIdeal.Gen.V m c Cert.KernelIdeal.main_v2)
      (Cert.KernelIdeal.Gen.V m c Cert.KernelIdeal.main_v5) (Cert.KernelIdeal.Gen.V m c Cert.KernelIdeal.main_v6)
      (Cert.KernelIdeal.Gen.V m c Cert.KernelIdeal.main_v20) (Cert.KernelIdeal.Gen.V m c Cert.KernelIdeal.main_v21)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v35_eq]
  funext i
  obtain rfl := ValueIdx.eq_ix0 i
  obtain ⟨hx0, hx1⟩ := Cert.FiniteInputs.inputs_real _ _ (hpre c)
  rw [Cert.RefSide.result_eq]
  refine Eq.trans ?_ (Cert.KernelIdeal.Result.result_eq m c).symm
  choose cr hcr using fun (b : Fin 4) (n : Fin 8192) (k : Fin 3) => hx1 (ValueIdx.ix3 b n k)
  choose sr hsr using Cert.RefSide.sqn_real _ hx1
  choose wr hwr using Cert.RefSide.wts_real _ hx0
  exact (Cert.PairSum.kerResult_eq_refResult (cr := cr) (sr := sr) (wr := wr) hcr hsr hwr).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
